-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x256 .f32) (main_arg9 : FVec F S40 .f32) (main_v33 : IVec S_ 1) : IVec S_ 1 :=
  let main_v34 : FVec F S40x256 .f32 := Host.absf main_arg8
  let main_cst_12 : FVec F S_ .f32 := constant S_ .f32 0x7F800000#32
  let main_v35 : FVec F S40x256 .f32 := broadcastInDim S40x256 ![] bcast_S_S40x256 main_cst_12
  let main_v36 : IVec S40x256 1 := cmpf .olt main_v34 main_v35
  let main_c_13 : IVec S_ 1 := constantI S_ 1 1#1
  let main_v37 : IVec S_ 1 := (fun x v => Host.reduce IntOp.andi x v reducesTo_S40x256_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S40x256 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S40x256 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S256x40 : Shape := ⟨2, ![256, 40]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x40 : Shape := ⟨2, ![50000, 40]⟩
abbrev S2000x40 : Shape := ⟨2, ![2000, 40]⟩
abbrev S2000x256 : Shape := ⟨2, ![2000, 256]⟩
abbrev S1x40 : Shape := ⟨2, ![1, 40]⟩
abbrev S2000 : Shape := ⟨1, ![2000]⟩

abbrev nBuf : Space → Nat
  | .hbm => 65
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x256, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S256x40, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S256x40, .f32⟩
  | .local _ .vmem, ⟨21, _⟩ => ⟨S40, .f32⟩
  | .local _ .vmem, ⟨22, _⟩ => ⟨S2000x40, .f32⟩
  | .local _ .vmem, ⟨23, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S128x128_S128x128_1_0 : S128x128.Transposes [1, 0] S128x128
  transposes_S40x256_S256x40_1_0 : S40x256.Transposes [1, 0] S256x40
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S2000x128_S2000x128_S2000x256_d1 : Shape.Concatenates [S2000x128, S2000x128] S2000x256 1
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x40.size a ≤ S256x40.size a
  hwx1_6 : ∀ i : grid1.Coords, EltTy.bits .f32 = 32 ∨ (Rect.block (s := S256x40) S256x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S40.size a ≤ S40.size a
  hwx1_7 : ∀ i : grid1.Coords, EltTy.bits .f32 = 32 ∨ (Rect.block (s := S40) S40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x40.size a ≤ S50000x40.size a
  hwx1_8 : ∀ i : grid1.Coords, EltTy.bits .f32 = 32 ∨ (Rect.block (s := S50000x40) S2000x40.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S256x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S2000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x256 : Shape := ⟨2, ![50000, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x256, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x256, .f32⟩
  | .hbm, ⟨89, _⟩ => ⟨S256x40, .f32⟩
  | .hbm, ⟨90, _⟩ => ⟨S50000x40, .f32⟩
  | .hbm, ⟨91, _⟩ => ⟨S1x40, .f32⟩
  | .hbm, ⟨92, _⟩ => ⟨S50000x40, .f32⟩
  | .hbm, ⟨93, _⟩ => ⟨S50000x40, .f32⟩
  | .hbm, ⟨94, _⟩ => ⟨S_, .f32⟩
  | .hbm, ⟨95, _⟩ => ⟨S50000, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x40, .f32⟩
  | .hbm, ⟨101, _⟩ => ⟨S50000x40, .f32⟩
  | .hbm, ⟨102, _⟩ => ⟨S50000x40, .f32⟩
  | .hbm, ⟨103, _⟩ => ⟨S_, .f32⟩
  | .hbm, ⟨104, _⟩ => ⟨S50000, .f32⟩
  | .hbm, ⟨105, _⟩ => ⟨S50000x1, .f32⟩
  | .hbm, ⟨106, _⟩ => ⟨S50000x1, .f32⟩
  | .hbm, ⟨107, _⟩ => ⟨S50000x40, .f32⟩
  | .hbm, ⟨108, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call3_cst : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call4_cst : Ref sig .tc := ⟨.hbm, 94, rfl⟩
abbrev main_call4_v0 : Ref sig .tc := ⟨.hbm, 95, rfl⟩
abbrev main_call4_cst_0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_cst_1 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_v64 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KerRun.lean ====
/-
  The idealized kernel's run with its result named.

  @main is six segments: three stretches of host operations, the first grid launch, a fourth stretch, the second grid
  launch.  Every weakly fair execution from a memory with zero counters terminates without a fault, and every
  unscoped buffer then holds what the fold through the segments leaves in it (`Gen.W6`): in particular the result
  buffer holds the second launch's output array, and the argument buffers what they were launched with.
-/
import proofs.«125414_j85985245266463_2_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run_value : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.RefRun.lean ====
/-
  The reference program's run, read back in two stages.

  The reference computes the first layer's features, then reads them three times over (as the gather's operand, as
  the second layer's own features, and as the first half of the concatenation); written as ONE term of the arguments
  its result repeats that subterm at every use.  Here the run is cut after each layer: the first 41 operations leave
  the first layer's features, the two index rows and the arguments (`stageA_*`); the next 37, from ANY contents holding
  those, leave the second layer's features (`stageB1_*`); the last 21, from any contents holding both layers' features,
  leave the result (`stageB2`).  Each stage's composed term is compared with the generated stage functions once.
  The three lists `opsA`, `opsB1` and `opsB2` are the program's printed list of operations, cut after the 41st and the
  78th.
-/
import proofs.«125414_j85985245266463_2_alg».proof.Proof.RefReadP
import Idealize.ShloMosaic.Lib.Pipeline.Frame

set_option maxRecDepth 65536

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations up to and including the first layer's relu. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v17) (TRef.of (T := ⟨S50000, .f32⟩) main_v18) maximumf,
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    unary main_arg2 main_v22 ((transpose S128x128 [1, 0] · transposes_S128x128_S128x128_1_0) : (⟨S128x128, .f32⟩ : BufTy).Contents (Elt F) → (⟨S128x128, .f32⟩ : BufTy).Contents (Elt F)),
    binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    unary main_arg4 main_v27 ((transpose S128x128 [1, 0] · transposes_S128x128_S128x128_1_0) : (⟨S128x128, .f32⟩ : BufTy).Contents (Elt F) → (⟨S128x128, .f32⟩ : BufTy).Contents (Elt F)),
    binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf ]

/-- The operations of the second layer, up to and including its relu. -/
abbrev opsB1 : List (HloOp τ sig (Elt F)) :=
  [ nullary main_c_4 (constantI S_ 32 0#32),
    unary main_c_4 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v41 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v42 (broadcastInDim S50000 ![] bcast_S_S50000 : (⟨S_, .f32⟩ : BufTy).Contents (Elt F) → (⟨S50000, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v44) (TRef.of (T := ⟨S50000, .f32⟩) main_v45) maximumf,
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v40 main_v47 main_v48 (Host.divf : (⟨S50000x128, .f32⟩ : BufTy).Contents (Elt F) → (⟨S50000x128, .f32⟩ : BufTy).Contents (Elt F) → (⟨S50000x128, .f32⟩ : BufTy).Contents (Elt F)),
    unary main_arg5 main_v49 ((transpose S128x128 [1, 0] · transposes_S128x128_S128x128_1_0) : (⟨S128x128, .f32⟩ : BufTy).Contents (Elt F) → (⟨S128x128, .f32⟩ : BufTy).Contents (Elt F)),
    binary main_v48 main_v49 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    unary main_arg7 main_v54 ((transpose S128x128 [1, 0] · transposes_S128x128_S128x128_1_0) : (⟨S128x128, .f32⟩ : BufTy).Contents (Elt F) → (⟨S128x128, .f32⟩ : BufTy).Contents (Elt F)),
    binary main_v30 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v56) (TRef.of (T := ⟨S50000x128, .f32⟩) main_call3_v0) (TRef.of (T := ⟨S50000x128, .f32⟩) main_v57) maximumf ]

/-- The head: the concatenation, the last product and the log-softmax. -/
abbrev opsB2 : List (HloOp τ sig (Elt F)) :=
  [ binary main_v30 main_v57 main_v58 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg8 main_v59 ((transpose S256x40 [1, 0] · transposes_S40x256_S256x40_1_0) : (⟨S40x256, .f32⟩ : BufTy).Contents (Elt F) → (⟨S256x40, .f32⟩ : BufTy).Contents (Elt F)),
    binary main_v58 main_v59 main_v60 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v61 (broadcastInDim S1x40 ![1] bcast_S40_S1x40_1 : (⟨S40, .f32⟩ : BufTy).Contents (Elt F) → (⟨S1x40, .f32⟩ : BufTy).Contents (Elt F)),
    unary main_v61 main_v62 (broadcastInDim S50000x40 ![0, 1] bcast_S1x40_S50000x40_0_1 : (⟨S1x40, .f32⟩ : BufTy).Contents (Elt F) → (⟨S50000x40, .f32⟩ : BufTy).Contents (Elt F)),
    binary main_v60 main_v62 main_v63 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call4_cst) (constant S_ .f32 0xFF800000#32),
    TRef.binary (TRef.of (T := ⟨S50000x40, .f32⟩) main_v63) (TRef.of (T := ⟨S_, .f32⟩) main_call4_cst) (TRef.of (T := ⟨S50000, .f32⟩) main_call4_v0) (fun x v => Host.reduce FloatOps.maximumf x v reducesTo_S50000x40_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x40, .f32⟩) main_call4_v4) (broadcastInDim S50000x40 ![0, 1] bcast_S50000x1_S50000x40_0_1),
    TRef.binary (TRef.of (T := ⟨S50000x40, .f32⟩) main_v63) (TRef.of (T := ⟨S50000x40, .f32⟩) main_call4_v4) (TRef.of (T := ⟨S50000x40, .f32⟩) main_call4_v5) subf,
    TRef.unary (TRef.of (T := ⟨S50000x40, .f32⟩) main_call4_v5) (TRef.of (T := ⟨S50000x40, .f32⟩) main_call4_v6) Host.exp,
    TRef.nullary (TRef.of (T := ⟨S_, .f32⟩) main_call4_cst_1) (constant S_ .f32 0x00000000#32),
    TRef.binary (TRef.of (T := ⟨S50000x40, .f32⟩) main_call4_v6) (TRef.of (T := ⟨S_, .f32⟩) main_call4_cst_1) (TRef.of (T := ⟨S50000, .f32⟩) main_call4_v7) (fun x v => Host.reduceAdd x v reducesTo_S50000x40_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x40, .f32⟩) main_call4_v10) (broadcastInDim S50000x40 ![0, 1] bcast_S50000x1_S50000x40_0_1),
    TRef.binary (TRef.of (T := ⟨S50000x40, .f32⟩) main_call4_v5) (TRef.of (T := ⟨S50000x40, .f32⟩) main_call4_v10) (TRef.of (T := ⟨S50000x40, .f32⟩) main_v64) subf ]

theorem ops_split : (ops : List (HloOp τ sig (Elt F))) = opsA ++ (opsB1 ++ opsB2) := rfl

variable (V : Valuation τ sig (Elt F))

set_option maxHeartbeats 4000000 in
/-- After the first stage the first layer's features are the generated stage function of the arguments. -/
theorem stageA_v30 : after opsA V (Proc.devRef .tc main_v30)
    = val_main_v30 (F := F) (V (Proc.devRef .tc main_arg0)) (V (Proc.devRef .tc main_arg1)) (V (Proc.devRef .tc main_arg2))
        (V (Proc.devRef .tc main_arg3)) (V (Proc.devRef .tc main_arg4)) := by
  after_results_simp <;> rfl

set_option maxHeartbeats 4000000 in
theorem stageA_v1 : after opsA V (Proc.devRef .tc main_v1) = val_main_v1 (F := F) (V (Proc.devRef .tc main_arg1)) := by
  after_results_simp <;> rfl

set_option maxHeartbeats 4000000 in
theorem stageA_v3 : after opsA V (Proc.devRef .tc main_v3) = val_main_v3 (F := F) (V (Proc.devRef .tc main_arg1)) := by
  after_results_simp <;> rfl

set_option maxHeartbeats 4000000 in
theorem stageA_arg5 : after opsA V (Proc.devRef .tc main_arg5) = V (Proc.devRef .tc main_arg5) := by after_results_simp <;> rfl
set_option maxHeartbeats 4000000 in
theorem stageA_arg6 : after opsA V (Proc.devRef .tc main_arg6) = V (Proc.devRef .tc main_arg6) := by after_results_simp <;> rfl
set_option maxHeartbeats 4000000 in
theorem stageA_arg7 : after opsA V (Proc.devRef .tc main_arg7) = V (Proc.devRef .tc main_arg7) := by after_results_simp <;> rfl
set_option maxHeartbeats 4000000 in
theorem stageA_arg8 : after opsA V (Proc.devRef .tc main_arg8) = V (Proc.devRef .tc main_arg8) := by after_results_simp <;> rfl
set_option maxHeartbeats 4000000 in
theorem stageA_arg9 : after opsA V (Proc.devRef .tc main_arg9) = V (Proc.devRef .tc main_arg9) := by after_results_simp <;> rfl

set_option maxHeartbeats 4000000 in
theorem stageA_arg8' : after opsB1 V (Proc.devRef .tc main_arg8) = V (Proc.devRef .tc main_arg8) := by
  unfold opsB1
  simp only [TRef.unary, TRef.binary, TRef.nullary, TRef.of, TRef.toBuf, TRef.ofBuf, cast_eq]
  after_results_simp <;> rfl
set_option maxHeartbeats 4000000 in
theorem stageA_arg9' : after opsB1 V (Proc.devRef .tc main_arg9) = V (Proc.devRef .tc main_arg9) := by
  unfold opsB1
  simp only [TRef.unary, TRef.binary, TRef.nullary, TRef.of, TRef.toBuf, TRef.ofBuf, cast_eq]
  after_results_simp <;> rfl
set_option maxHeartbeats 4000000 in
theorem stageB1_v30 : after opsB1 V (Proc.devRef .tc main_v30) = V (Proc.devRef .tc main_v30) := by
  unfold opsB1
  simp only [TRef.unary, TRef.binary, TRef.nullary, TRef.of, TRef.toBuf, TRef.ofBuf, cast_eq]
  after_results_simp <;> rfl

set_option maxHeartbeats 8000000 in
/-- The second layer, from any contents that hold the first layer's features, the index rows and its weights. -/
theorem stageB1_v57 (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 x5 : (⟨S128x128, .f32⟩ : BufTy).Contents (Elt F)) (x6 : (⟨S128, .f32⟩ : BufTy).Contents (Elt F))
    (x7 : (⟨S128x128, .f32⟩ : BufTy).Contents (Elt F))
    (h30 : V (Proc.devRef .tc main_v30) = val_main_v30 (F := F) x0 x1 x2 x3 x4)
    (h1 : V (Proc.devRef .tc main_v1) = val_main_v1 (F := F) x1) (h3 : V (Proc.devRef .tc main_v3) = val_main_v3 (F := F) x1)
    (h5 : V (Proc.devRef .tc main_arg5) = x5) (h6 : V (Proc.devRef .tc main_arg6) = x6)
    (h7 : V (Proc.devRef .tc main_arg7) = x7) :
    after opsB1 V (Proc.devRef .tc main_v57) = val_main_v57 (F := F) x0 x1 x2 x3 x4 x5 x6 x7 := by
  unfold opsB1
  simp only [TRef.unary, TRef.binary, TRef.nullary, TRef.of, TRef.toBuf, TRef.ofBuf, cast_eq]
  after_results_simp
  rw [h30, h1, h3, h5, h6, h7]
  rfl

set_option maxHeartbeats 8000000 in
/-- The head, from any contents that hold the two layers' features and its weights. -/
theorem stageB2 (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 x5 : (⟨S128x128, .f32⟩ : BufTy).Contents (Elt F)) (x6 : (⟨S128, .f32⟩ : BufTy).Contents (Elt F))
    (x7 : (⟨S128x128, .f32⟩ : BufTy).Contents (Elt F)) (x8 : (⟨S40x256, .f32⟩ : BufTy).Contents (Elt F))
    (x9 : (⟨S40, .f32⟩ : BufTy).Contents (Elt F))
    (h30 : V (Proc.devRef .tc main_v30) = val_main_v30 (F := F) x0 x1 x2 x3 x4)
    (h57 : V (Proc.devRef .tc main_v57) = val_main_v57 (F := F) x0 x1 x2 x3 x4 x5 x6 x7)
    (h8 : V (Proc.devRef .tc main_arg8) = x8) (h9 : V (Proc.devRef .tc main_arg9) = x9) :
    after opsB2 V (Proc.devRef .tc main_v64) = val_main_v64 (F := F) x0 x1 x2 x3 x4 x5 x6 x7 x8 x9 := by
  unfold opsB2
  simp only [TRef.unary, TRef.binary, TRef.nullary, TRef.of, TRef.toBuf, TRef.ofBuf, cast_eq]
  after_results_simp
  rw [h30, h57, h8, h9]
  rfl

variable (m : (ℓ : Loc nD τ sig) → Buf (Elt F) ℓ) (ρ : Dev nD → PrngReg)

/-- The whole line's result buffer: the three stages in sequence. -/
theorem result_eq (c : Dev nD) :
    after (ops (F := F)) (launchContents m c) (Proc.devRef .tc main_v64)
      = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, StableHlo.after_append, StableHlo.after_append]
  refine stageB2 _ _ _ _ _ _ _ _ _ _ _ ?_ ?_ ?_ ?_
  · rw [stageB1_v30]; exact stageA_v30 _
  · exact stageB1_v57 _ _ _ _ _ _ _ _ _ (stageA_v30 _) (stageA_v1 _) (stageA_v3 _) (stageA_arg5 _) (stageA_arg6 _) (stageA_arg7 _)
  · rw [stageA_arg8']; exact stageA_arg8 _
  · rw [stageA_arg9']; exact stageA_arg9 _

set_option maxHeartbeats 39600000 in
/-- From any memory with zero counters every weakly fair execution of the reference terminates with the result at the
    generated last stage of the arguments, the arguments unchanged. -/
theorem run : θ_run defs (onTc (τ := τ) (main (F := F))) ⟨m, fun _ => 0, ρ⟩ fun r => ∀ c : Dev nD,
      r.2.mem ((c.tc : Thread nD τ).loc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v64).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibLaneConcat.lean ====
/-
  Two matrices of the same height and 128 lanes each, joined along the lanes into 256 lanes, read at an entry:
  lanes below 128 come from the first matrix, the others from the second with the lane shifted down by 128.
-/
import Idealize.ShloMosaic.Lib.Pipeline.Value
import Idealize.ShloMosaic.Lib.ValueIdx

noncomputable section

namespace Cert.LaneConcat

open Idealize.ShloMosaic Idealize.ShloMosaic.ValueIdx

variable {α : Type} {R : Nat}

/-- The joined matrix at (r, k): the first piece at (r, k) for k < 128, else the second piece at (r, k − 128). -/
theorem concat_apply (x1 x2 : (⟨2, ![R, 128]⟩ : Shape).Idx → α)
    (h : Shape.Concatenates [(⟨2, ![R, 128]⟩ : Shape), (⟨2, ![R, 128]⟩ : Shape)] (⟨2, ![R, 256]⟩ : Shape) 1)
    (r : Fin R) (k : Fin 256) :
    concatenate (⟨2, ![R, 256]⟩ : Shape) 1 [⟨(⟨2, ![R, 128]⟩ : Shape), x1⟩, ⟨(⟨2, ![R, 128]⟩ : Shape), x2⟩] h (ix2 r k)
      = if hk : k.val < 128 then x1 (ix2 r ⟨k.val, hk⟩)
        else x2 (ix2 r ⟨k.val - 128, by have := k.isLt; omega⟩) := by
  split
  · rename_i hk
    exact concatenate_pair_apply_left 1 x1 x2 h (ix2 r k) rfl (ix2 r ⟨k.val, hk⟩) (fun b => by
      match b with
      | ⟨0, _⟩ => rfl
      | ⟨1, _⟩ => rfl)
  · rename_i hk
    exact concatenate_pair_apply_right 1 x1 x2 h (ix2 r k) rfl rfl (ix2 r ⟨k.val - 128, by have := k.isLt; omega⟩)
      (fun b hb => by
        match b with
        | ⟨0, _⟩ => rfl
        | ⟨1, _⟩ => exact absurd rfl hb)
      (by show (k.val - 128) + 128 = k.val; omega)

end Cert.LaneConcat

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Sage.lean ====
/-
  A two-layer mean-aggregation graph convolution with a linear head and a row-wise log-softmax, written as plain
  functions of (row, lane) coordinates over the extended reals.

  One layer takes the neighbour sums `agg`, the node features `h`, the clamped in-degree `c` of every node and two
  weight matrices (stored transposed: `W k j` multiplies input lane `k` into output lane `j`) with a bias, and
  returns relu (mean-aggregate · Wl + h · Wr + b).  It is written twice:

  * `layerK` multiplies every neighbour sum by the reciprocal 1 / c of the degree and adds the bias last;
  * `layerR` divides every neighbour sum by the degree and adds the bias between the two products.

  For a degree that is a nonzero real the quotient by it is the product with its reciprocal on every extended
  real, and addition of extended reals is commutative and associative, so the two layers are one function
  (`layerK_eq_layerR`): no finiteness of the features is used there.

  The head concatenates the two layers' outputs along the lanes, multiplies by a third matrix, adds a bias, and
  takes the log-softmax of each row.  With m the row's maximum and T = log Σ exp (ℓ − m), one program returns
  ℓ − (m + T) and the other (ℓ − m) − T.  On the extended reals −(m + T) = −m − T needs m finite (for m = +∞ the
  sum is empty of mass, T = −∞, and the two sides differ), which holds when every logit is a real number
  (`lsmK_eq_lsmR`).  The remaining lemmas say that each stage maps real entries to real entries.
-/
import Idealize.ShloMosaic.PureOps.Ideal
import Mathlib.Data.Finset.Fold
import Idealize.ShloMosaic.Lib.ValueIdx
import proofs.«125414_j85985245266463_2_alg».proof.Proof.LibRealSums

noncomputable section

open scoped BigOperators

namespace Cert.Sage

open Idealize.ShloMosaic

variable {N D D2 O : ℕ}

/-! ## Arrays as functions of their coordinates -/

/-- A matrix as a function of its row and lane. -/
abbrev cur {a b : ℕ} (x : (⟨2, ![a, b]⟩ : Shape).Idx → EReal) : Fin a → Fin b → EReal := fun r k => x (ValueIdx.ix2 r k)
/-- A column as a function of its row. -/
abbrev col {a : ℕ} (x : (⟨2, ![a, 1]⟩ : Shape).Idx → EReal) : Fin a → EReal := fun r => x (ValueIdx.ix2 r 0)
/-- A vector as a function of its position. -/
abbrev vec {a : ℕ} (x : (⟨1, ![a]⟩ : Shape).Idx → EReal) : Fin a → EReal := fun k => x (ValueIdx.ix1 k)

/-! ## Real entries -/

/-- An extended real that is a real number. -/
def IsR (x : EReal) : Prop := ∃ r : ℝ, x = (r : EReal)

theorem IsR.zero : IsR 0 := ⟨0, rfl⟩
theorem IsR.one : IsR 1 := ⟨1, rfl⟩
theorem IsR.coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  obtain ⟨a, rfl⟩ := hx; obtain ⟨b, rfl⟩ := hy; exact ⟨Max.max a b, (Cert.ScaledSum.coe_max a b).symm⟩

theorem IsR.sum {ι : Type*} (s : Finset ι) (f : ι → EReal) (hf : ∀ k, IsR (f k)) : IsR (∑ k ∈ s, f k) :=
  Cert.ScaledSum.exists_real_sum s f hf

/-- A real that is not zero, seen in the extended reals. -/
def IsUnit' (y : EReal) : Prop := ∃ b : ℝ, b ≠ 0 ∧ y = (b : EReal)

theorem IsR.div {x y : EReal} (hx : IsR x) (hy : IsUnit' y) : IsR (Ideal.div x y) := by
  obtain ⟨a, rfl⟩ := hx; obtain ⟨b, hb, rfl⟩ := hy
  rw [Ideal.div_coe hb]; exact ⟨a * (1 / b), (EReal.coe_mul _ _).symm⟩

/-- The larger of one and a real is a nonzero real. -/
theorem isUnit'_max_one {x : EReal} (hx : IsR x) : IsUnit' (Max.max 1 x) := by
  obtain ⟨a, rfl⟩ := hx
  refine ⟨Max.max 1 a, ?_, ?_⟩
  · have : (1 : ℝ) ≤ Max.max 1 a := le_max_left _ _
    intro h; rw [h] at this; linarith
  · rw [Cert.ScaledSum.coe_max]; rfl

/-! ## One layer, twice -/

/-- The layer with the degree's reciprocal multiplied in and the bias added last. -/
def layerK (agg h : Fin N → Fin D → EReal) (inv : Fin N → EReal) (Wl Wr : Fin D → Fin D → EReal) (b : Fin D → EReal) :
    Fin N → Fin D → EReal :=
  fun r j => Max.max ((∑ k, (agg r k * inv r) * Wl k j + ∑ k, h r k * Wr k j) + b j) 0

/-- The layer with the neighbour sums divided by the degree and the bias added between the two products. -/
def layerR (agg h : Fin N → Fin D → EReal) (c : Fin N → EReal) (Wl Wr : Fin D → Fin D → EReal) (b : Fin D → EReal) :
    Fin N → Fin D → EReal :=
  fun r j => Max.max ((∑ k, Ideal.div (agg r k) (c r) * Wl k j + b j) + ∑ k, h r k * Wr k j) 0

/-- For degrees that are nonzero reals the two layers agree, whatever the features. -/
theorem layerK_eq_layerR (agg h : Fin N → Fin D → EReal) (c : Fin N → EReal) (Wl Wr : Fin D → Fin D → EReal)
    (b : Fin D → EReal) (hc : ∀ r, IsUnit' (c r)) :
    layerK agg h (fun r => Ideal.div 1 (c r)) Wl Wr b = layerR agg h c Wl Wr b := by
  funext r j
  obtain ⟨y, hy, hcy⟩ := hc r
  unfold layerK layerR
  dsimp only
  have e1 : Ideal.div 1 (c r) = ((1 / y : ℝ) : EReal) := by rw [hcy, Ideal.div_coe hy, one_mul]
  have e2 : ∀ k, Ideal.div (agg r k) (c r) = agg r k * ((1 / y : ℝ) : EReal) := fun k => by rw [hcy, Ideal.div_coe hy]
  rw [e1]
  simp only [e2]
  rw [add_right_comm]

/-- A layer's value at (r, j) depends only on row r of the sums and features, on the degree of r, and on the weights. -/
theorem layerK_congr {N' : ℕ} (agg h : Fin N → Fin D → EReal) (inv : Fin N → EReal) (agg' h' : Fin N' → Fin D → EReal)
    (inv' : Fin N' → EReal) (Wl Wr Wl' Wr' : Fin D → Fin D → EReal) (b b' : Fin D → EReal) (r : Fin N) (r' : Fin N') (j : Fin D)
    (ha : ∀ k, agg r k = agg' r' k) (hh : ∀ k, h r k = h' r' k) (hi : inv r = inv' r')
    (hl : ∀ k j, Wl k j = Wl' k j) (hr : ∀ k j, Wr k j = Wr' k j) (hb : ∀ j, b j = b' j) :
    layerK agg h inv Wl Wr b r j = layerK agg' h' inv' Wl' Wr' b' r' j := by
  unfold layerK
  simp only [ha, hh, hi, hl, hr, hb]

/-- A layer of real inputs has real outputs. -/
theorem layerR_real (agg h : Fin N → Fin D → EReal) (c : Fin N → EReal) (Wl Wr : Fin D → Fin D → EReal)
    (b : Fin D → EReal) (hagg : ∀ r k, IsR (agg r k)) (hh : ∀ r k, IsR (h r k)) (hc : ∀ r, IsUnit' (c r))
    (hWl : ∀ k j, IsR (Wl k j)) (hWr : ∀ k j, IsR (Wr k j)) (hb : ∀ j, IsR (b j)) (r : Fin N) (j : Fin D) :
    IsR (layerR agg h c Wl Wr b r j) :=
  IsR.max (IsR.add (IsR.add (IsR.sum _ _ fun k => IsR.mul (IsR.div (hagg r k) (hc r)) (hWl k j)) (hb j))
    (IsR.sum _ _ fun k => IsR.mul (hh r k) (hWr k j))) IsR.zero

/-! ## The head -/

/-- Two feature matrices side by side along the lanes. -/
def cat (hD : D2 = D + D) (h1 h2 : Fin N → Fin D → EReal) (r : Fin N) (k : Fin D2) : EReal :=
  if hk : k.val < D then h1 r ⟨k.val, hk⟩ else h2 r ⟨k.val - D, by have := k.isLt; omega⟩

theorem cat_real (hD : D2 = D + D) (h1 h2 : Fin N → Fin D → EReal) (hh1 : ∀ r k, IsR (h1 r k))
    (hh2 : ∀ r k, IsR (h2 r k)) (r : Fin N) (k : Fin D2) : IsR (cat hD h1 h2 r k) := by
  unfold cat; split
  · exact hh1 _ _
  · exact hh2 _ _

/-- The linear head on the concatenated features. -/
def logitsOf (hD : D2 = D + D) (h1 h2 : Fin N → Fin D → EReal) (Wt : Fin D2 → Fin O → EReal) (b : Fin O → EReal) :
    Fin N → Fin O → EReal :=
  fun r o => (∑ k, cat hD h1 h2 r k * Wt k o) + b o

theorem logits_real (hD : D2 = D + D) (h1 h2 : Fin N → Fin D → EReal) (Wt : Fin D2 → Fin O → EReal) (b : Fin O → EReal)
    (hh1 : ∀ r k, IsR (h1 r k)) (hh2 : ∀ r k, IsR (h2 r k)) (hW : ∀ k o, IsR (Wt k o)) (hb : ∀ o, IsR (b o))
    (r : Fin N) (o : Fin O) : IsR (logitsOf hD h1 h2 Wt b r o) :=
  IsR.add (IsR.sum _ _ fun k => IsR.mul (cat_real hD h1 h2 hh1 hh2 r k) (hW k o)) (hb o)

/-- The head's value at (r, o) depends only on row r of the two feature matrices, and on the weights. -/
theorem logitsOf_congr {N' : ℕ} (hD : D2 = D + D) (h1 h2 : Fin N → Fin D → EReal) (h1' h2' : Fin N' → Fin D → EReal)
    (Wt Wt' : Fin D2 → Fin O → EReal) (b b' : Fin O → EReal) (r : Fin N) (r' : Fin N') (o : Fin O)
    (e1 : ∀ k, h1 r k = h1' r' k) (e2 : ∀ k, h2 r k = h2' r' k) (eW : ∀ k o, Wt k o = Wt' k o) (eb : ∀ o, b o = b' o) :
    logitsOf hD h1 h2 Wt b r o = logitsOf hD h1' h2' Wt' b' r' o := by
  unfold logitsOf cat
  simp only [e1, e2, eW, eb]

/-- A row's maximum, folded from −∞. -/
def rowMax (L : Fin O → EReal) : EReal := (Finset.univ : Finset (Fin O)).fold Max.max ⊥ L

/-- The maximum of a nonempty row of reals is a real. -/
theorem rowMax_real (hO : 0 < O) (L : Fin O → EReal) (hL : ∀ o, IsR (L o)) : IsR (rowMax L) := by
  have htop : rowMax L ≠ ⊤ :=
    ne_of_lt ((Finset.fold_max_lt ⊤).2 ⟨bot_lt_top, fun o _ => by
      obtain ⟨x, hx⟩ := hL o; rw [hx]; exact EReal.coe_lt_top x⟩)
  have hbot : rowMax L ≠ ⊥ :=
    (ne_of_lt ((Finset.lt_fold_max ⊥).2 (Or.inr ⟨⟨0, hO⟩, Finset.mem_univ _, by
      obtain ⟨x, hx⟩ := hL ⟨0, hO⟩; rw [hx]; exact EReal.bot_lt_coe x⟩))).symm
  exact ⟨(rowMax L).toReal, (EReal.coe_toReal htop hbot).symm⟩

/-- Log-softmax as ℓ − (m + log Σ exp (ℓ − m)). -/
def lsmK (L : Fin N → Fin O → EReal) : Fin N → Fin O → EReal :=
  fun r o => L r o - (rowMax (L r) + Ideal.log (∑ o', Ideal.exp (L r o' - rowMax (L r))))

/-- Log-softmax as (ℓ − m) − log Σ exp (ℓ − m). -/
def lsmR (L : Fin N → Fin O → EReal) : Fin N → Fin O → EReal :=
  fun r o => (L r o - rowMax (L r)) - Ideal.log (∑ o', Ideal.exp (L r o' - rowMax (L r)))

/-- The log-softmax at (r, o) depends only on row r of the logits. -/
theorem lsmK_congr {N' : ℕ} (L : Fin N → Fin O → EReal) (L' : Fin N' → Fin O → EReal) (r : Fin N) (r' : Fin N') (o : Fin O)
    (e : ∀ o, L r o = L' r' o) : lsmK L r o = lsmK L' r' o := by
  have e' : L r = L' r' := funext e
  unfold lsmK
  rw [e']

/-- On rows of reals the two spellings agree: the row maximum is finite, so its negation distributes over the sum. -/
theorem lsmK_eq_lsmR (hO : 0 < O) (L : Fin N → Fin O → EReal) (hL : ∀ r o, IsR (L r o)) : lsmK L = lsmR L := by
  funext r o
  obtain ⟨mr, hm⟩ := rowMax_real hO (L r) (hL r)
  unfold lsmK lsmR
  rw [hm]
  simp only [sub_eq_add_neg]
  rw [EReal.neg_add (Or.inl (EReal.coe_ne_bot mr)) (Or.inl (EReal.coe_ne_top mr)), sub_eq_add_neg, add_assoc]

end Cert.Sage

end
-- ==== Proof.KerPay.lean ====
/-
  The two kernel bodies' stored values read at an entry, at the ideal values.

  The first body's value at (p, j) is one graph-convolution layer of the blocks it loaded, with the degree's
  reciprocal multiplied in (`Cert.Sage.layerK`): the two matrix products are sums over the contracted lane, the
  reciprocal-degree column and the bias row are spread over their row and column, a change of float format is the
  identity.  The second body's value at (p, o) is the log-softmax, spelt ℓ − (m + log Σ exp (ℓ − m)), of the linear
  head applied to the loaded features joined with that layer's output (`Cert.Sage.lsmK` of `Cert.Sage.logitsOf`).
-/
import proofs.«125414_j85985245266463_2_alg».proof.Proof.Gen.KernelIdeal.Skeleton
import Idealize.ShloMosaic.Lib.Pipeline.Value
import Idealize.ShloMosaic.Lib.ValueIdx
import Idealize.ShloMosaic.PureOps.Ideal.Laws
import proofs.«125414_j85985245266463_2_alg».proof.Proof.LibPlainDot
import proofs.«125414_j85985245266463_2_alg».proof.Proof.LibRowOps
import proofs.«125414_j85985245266463_2_alg».proof.Proof.LibRowVector
import proofs.«125414_j85985245266463_2_alg».proof.Proof.LibLaneConcat
import proofs.«125414_j85985245266463_2_alg».proof.Proof.Sage

noncomputable section

open scoped BigOperators

namespace Cert.KernelIdeal.Pay

open Cert.KernelIdeal Cert.KernelIdeal.Gen Idealize.ShloMosaic Idealize.ShloMosaic.ValueIdx Cert.Sage

/-- The bit pattern of −∞ is the bottom extended real. -/
theorem ofBits_neg_inf : Ideal.ofBits .f32 0xFF800000#32 = (⊥ : EReal) := by
  simp [Ideal.ofBits, Ideal.ieee]

/-- A block times a 128 × 128 matrix, into the zero accumulator, at (p, j). -/
theorem mm128 (A : FVec Ideal S2000x128 .bf16) (B : FVec Ideal S128x128 .bf16) (p : Fin 2000) (j : Fin 128) :
    matmul dot_S2000x128_S128x128_S2000x128_1_0_0_1_n_n none A B (constant (F := Ideal) S2000x128 .f32 0x00000000#32) (ix2 p j)
      = ∑ c : Fin 128, A (ix2 p c) * B (ix2 c j) :=
  Cert.PlainDot.matmul_zero_apply _ rfl none A B p j

/-- A block of 256 lanes times a 256 × 40 matrix, into the zero accumulator, at (p, o). -/
theorem mm256 (A : FVec Ideal S2000x256 .bf16) (B : FVec Ideal S256x40 .bf16) (p : Fin 2000) (o : Fin 40) :
    matmul dot_S2000x256_S256x40_S2000x40_1_0_0_1_n_n none A B (constant (F := Ideal) S2000x40 .f32 0x00000000#32) (ix2 p o)
      = ∑ c : Fin 256, A (ix2 p c) * B (ix2 c o) :=
  Cert.PlainDot.matmul_zero_apply _ rfl none A B p o

/-- One layer on a block: the value of the first body at (p, j). -/
theorem layer_block (agg : Vec Ideal S2000x128 .f32) (inv : Vec Ideal S2000x1 .f32) (x : Vec Ideal S2000x128 .f32)
    (wl wr : Vec Ideal S128x128 .f32) (bl : Vec Ideal S128 .f32) (p : Fin 2000) (j : Fin 128) :
    maximumf (addf (addf
        (matmul dot_S2000x128_S128x128_S2000x128_1_0_0_1_n_n none
          (truncf .bf16 (mulf agg (broadcastTo S2000x128 inv broadcasts_S2000x1_S2000x128)) bitsLt_bf16_f32)
          (truncf .bf16 wl bitsLt_bf16_f32) (constant (F := Ideal) S2000x128 .f32 0x00000000#32))
        (matmul dot_S2000x128_S128x128_S2000x128_1_0_0_1_n_n none
          (truncf .bf16 x bitsLt_bf16_f32) (truncf .bf16 wr bitsLt_bf16_f32)
          (constant (F := Ideal) S2000x128 .f32 0x00000000#32)))
        (broadcastTo S2000x128 (shapeCast S1x128 bl shapeCasts_S128_S1x128) broadcasts_S1x128_S2000x128))
      (broadcast S2000x128 (Scalar.ofBits (F := Ideal) .f32 0x00000000#32)) (ix2 p j)
    = layerK (cur agg) (cur x) (col inv) (cur wl) (cur wr) (vec bl) p j := by
  rw [maximumf_apply, addf_apply, addf_apply, broadcast_apply, mm128, mm128,
    Cert.RowVector.broadcastTo_row (n := 128) (by decide), Cert.RowVector.shapeCast_row]
  simp only [truncf_apply, mulf_apply, RowOps.broadcastTo_a1_ab_apply]
  unfold layerK
  exact congrArg (fun z => Max.max _ z) Ideal.ofBits_zero_f32

theorem pay0_apply (v0 : Vec Ideal S2000x128 .f32) (v2 : Vec Ideal S2000x1 .f32) (v6 : Vec Ideal S2000x128 .f32)
    (v9 v12 : Vec Ideal S128x128 .f32) (v15 : Vec Ideal S128 .f32) (p : Fin 2000) (j : Fin 128) :
    k0_pay1 (F := Ideal) v0 v2 v6 v9 v12 v15 (ix2 p j)
      = layerK (cur v0) (cur v6) (col v2) (cur v9) (cur v12) (vec v15) p j := by
  unfold k0_pay1
  simp only [shapeCast_self]
  exact layer_block v0 v2 v6 v9 v12 v15 p j

/-- The linear head on a block: the second body's logits at (p, o). -/
theorem logits_block (h1 agg : Vec Ideal S2000x128 .f32) (inv : Vec Ideal S2000x1 .f32) (wl wr : Vec Ideal S128x128 .f32)
    (bl : Vec Ideal S128 .f32) (wlin : Vec Ideal S256x40 .f32) (blin : Vec Ideal S40 .f32) (p : Fin 2000) (o : Fin 40) :
    k1_pay2 (F := Ideal) h1 agg inv wl wr bl wlin blin (ix2 p o)
      = logitsOf (D := 128) (D2 := 256) rfl (cur h1) (layerK (cur agg) (cur h1) (col inv) (cur wl) (cur wr) (vec bl))
          (cur wlin) (vec blin) p o := by
  unfold k1_pay2
  rw [addf_apply, mm256, Cert.RowVector.broadcastTo_row (n := 40) (by decide), Cert.RowVector.shapeCast_row]
  unfold logitsOf
  refine congrArg (· + _) (Finset.sum_congr rfl fun k _ => ?_)
  simp only [truncf_apply, shapeCast_self, Cert.LaneConcat.concat_apply]
  unfold cat
  refine congrArg (· * _) ?_
  exact dite_congr rfl (fun hk => rfl) (fun hk => layer_block agg inv h1 wl wr bl p _)

theorem exp_apply {s : Shape} (a : FVec Ideal s .f32) (i : s.Idx) : exp a i = Ideal.exp (a i) := rfl
theorem log_apply {s : Shape} (a : FVec Ideal s .f32) (i : s.Idx) : log a i = Ideal.log (a i) := rfl

/-- A block's row maxima kept as a column, at (p, u): the fold of max from −∞ over row p. -/
theorem rowmax_block (L : FVec Ideal S2000x40 .f32) (p : Fin 2000) (u : Fin 1) :
    shapeCast S2000x1 (multiReduction (F := Ideal) .maximumf [1] S2000 L 0xFF800000#32 reduces_S2000x40_S2000 (.inl rfl) rfl)
        shapeCasts_S2000_S2000x1 (ix2 p u)
      = rowMax (fun o => L (ix2 p o)) := by
  rw [RowOps.shapeCast_a_a1_apply]
  refine (RowOps.rowMax_apply L 0xFF800000#32 reduces_S2000x40_S2000 (.inl rfl) rfl p).trans ?_
  rw [ofBits_neg_inf]
  rfl

/-- The second body's stored value from its logits block: ℓ − (m + log Σ exp (ℓ − m)) at (p, o). -/
theorem lsm_block (L : FVec Ideal S2000x40 .f32) (p : Fin 2000) (o : Fin 40) :
    k1_pay1 (F := Ideal) L
        (shapeCast S2000x1 (multiReduction (F := Ideal) .maximumf [1] S2000 L 0xFF800000#32 reduces_S2000x40_S2000 (.inl rfl) rfl)
          shapeCasts_S2000_S2000x1)
        (exp (subf L (broadcastTo S2000x40
          (shapeCast S2000x1 (multiReduction (F := Ideal) .maximumf [1] S2000 L 0xFF800000#32 reduces_S2000x40_S2000 (.inl rfl) rfl)
            shapeCasts_S2000_S2000x1) broadcasts_S2000x1_S2000x40))) (ix2 p o)
      = lsmK (cur L) p o := by
  unfold k1_pay1
  rw [subf_apply, RowOps.broadcastTo_a1_ab_apply, addf_apply, rowmax_block, log_apply, RowOps.shapeCast_a_a1_apply]
  unfold lsmK
  refine congrArg (fun z => _ - (_ + Ideal.log z))
    ((RowOps.rowSum_apply _ 0x00000000#32 reduces_S2000x40_S2000 (.inl rfl) rfl p).trans
      (Finset.sum_congr rfl fun k _ => ?_))
  rw [exp_apply, subf_apply, RowOps.broadcastTo_a1_ab_apply, rowmax_block]

theorem pay1_apply (v0 v2 : Vec Ideal S2000x128 .f32) (v4 : Vec Ideal S2000x1 .f32) (v10 v13 : Vec Ideal S128x128 .f32)
    (v16 : Vec Ideal S128 .f32) (v27 : Vec Ideal S256x40 .f32) (v30 : Vec Ideal S40 .f32) (p : Fin 2000) (o : Fin 40) :
    k1_pay1 (F := Ideal) (k1_pay2 v0 v2 v4 v10 v13 v16 v27 v30) (k1_pay3 v0 v2 v4 v10 v13 v16 v27 v30)
        (k1_pay4 v0 v2 v4 v10 v13 v16 v27 v30) (ix2 p o)
      = lsmK (logitsOf (D := 128) (D2 := 256) rfl (cur v0)
          (layerK (cur v2) (cur v0) (col v4) (cur v10) (cur v13) (vec v16)) (cur v27) (vec v30)) p o := by
  have e : (cur (k1_pay2 (F := Ideal) v0 v2 v4 v10 v13 v16 v27 v30))
      = logitsOf (D := 128) (D2 := 256) rfl (cur v0)
          (layerK (cur v2) (cur v0) (col v4) (cur v10) (cur v13) (vec v16)) (cur v27) (vec v30) :=
    funext fun p => funext fun o => logits_block v0 v2 v4 v10 v13 v16 v27 v30 p o
  rw [← e]
  unfold k1_pay4 k1_pay3
  exact lsm_block _ p o

end Cert.KernelIdeal.Pay

end
-- ==== Proof.KerBlocks.lean ====
/-
  From blocks to whole arrays, for each of the two grid launches, at the contents `V` its launch finds.

  Both launches walk the 50000 node rows in 25 blocks of 2000 rows; at point t every row-blocked operand shows rows
  2000·t … 2000·t + 1999 and the weights and biases show whole.  What point t writes back is therefore block t of ONE
  function of the whole arrays: for the first launch a graph-convolution layer (`H1`), for the second the log-softmax of
  the linear head on the first layer's features joined with a second layer's (`Out`).  The 25 blocks tile the output, so
  the output array ends holding that function.
-/
import proofs.«125414_j85985245266463_2_alg».proof.Proof.Gen.KernelIdeal.Frame
import proofs.«125414_j85985245266463_2_alg».proof.Proof.KerPay
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pay Idealize.ShloMosaic.ValueIdx Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first launch -/

/-- The printed index maps over the grid: the row-blocked windows sit at block (t, 0), the others at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is node row 2000·t + p. -/
def row0 (t : Fin cfg0.N) (p : Fin 2000) : Fin 50000 :=
  ⟨t.val * 2000 + p.val, by have h := t.isLt; have hN : cfg0.N = 25 := N_0; omega⟩

theorem blk0_0 (c : Dev nD) (t : Fin cfg0.N) (p : Fin 2000) (k : Fin 128) :
    (iblk0 V c 0 t : Vec Ideal S2000x128 .f32) (ix2 p k) = (V c main_arg0 : S50000x128.Idx → EReal) (ix2 (row0 t p) k) := by
  obtain ⟨a0, a1, b0, b1, c0, c1, d0, d1, e0, f0, f1, g0, g1⟩ := idx0 t
  unfold iblk0
  rw [View.read_apply]
  show V c main_arg0 _ = V c main_arg0 _
  congr 1
  funext a; apply Fin.ext
  match a with
  | ⟨0, _⟩ => show win0_0.index t (0 : Fin 2) * 2000 + 1 * p.val = t.val * 2000 + p.val; rw [a0]; omega
  | ⟨1, _⟩ => show win0_0.index t (1 : Fin 2) * 128 + 1 * k.val = k.val; rw [a1]; omega

theorem blk0_1 (c : Dev nD) (t : Fin cfg0.N) (p : Fin 2000) (k : Fin 128) :
    (iblk0 V c 1 t : Vec Ideal S2000x128 .f32) (ix2 p k) = (V c main_v28 : S50000x128.Idx → EReal) (ix2 (row0 t p) k) := by
  obtain ⟨a0, a1, b0, b1, c0, c1, d0, d1, e0, f0, f1, g0, g1⟩ := idx0 t
  unfold iblk0
  rw [View.read_apply]
  show V c main_v28 _ = V c main_v28 _
  congr 1
  funext a; apply Fin.ext
  match a with
  | ⟨0, _⟩ => show win0_1.index t (0 : Fin 2) * 2000 + 1 * p.val = t.val * 2000 + p.val; rw [b0]; omega
  | ⟨1, _⟩ => show win0_1.index t (1 : Fin 2) * 128 + 1 * k.val = k.val; rw [b1]; omega

theorem blk0_2 (c : Dev nD) (t : Fin cfg0.N) (p : Fin 2000) :
    (iblk0 V c 2 t : Vec Ideal S2000x1 .f32) (ix2 p 0) = (V c main_v11 : S50000x1.Idx → EReal) (ix2 (row0 t p) 0) := by
  obtain ⟨a0, a1, b0, b1, c0, c1, d0, d1, e0, f0, f1, g0, g1⟩ := idx0 t
  unfold iblk0
  rw [View.read_apply]
  show V c main_v11 _ = V c main_v11 _
  congr 1
  funext a; apply Fin.ext
  match a with
  | ⟨0, _⟩ => show win0_2.index t (0 : Fin 2) * 2000 + 1 * p.val = t.val * 2000 + p.val; rw [c0]; omega
  | ⟨1, _⟩ => show win0_2.index t (1 : Fin 2) * 1 + 1 * 0 = 0; rw [c1]

theorem blk0_3 (c : Dev nD) (t : Fin cfg0.N) (k j : Fin 128) :
    (iblk0 V c 3 t : Vec Ideal S128x128 .f32) (ix2 k j) = (V c main_v12 : S128x128.Idx → EReal) (ix2 k j) := by
  obtain ⟨a0, a1, b0, b1, c0, c1, d0, d1, e0, f0, f1, g0, g1⟩ := idx0 t
  unfold iblk0
  rw [View.read_apply]
  show V c main_v12 _ = V c main_v12 _
  congr 1
  funext a; apply Fin.ext
  match a with
  | ⟨0, _⟩ => show win0_3.index t (0 : Fin 2) * 128 + 1 * k.val = k.val; rw [d0]; omega
  | ⟨1, _⟩ => show win0_3.index t (1 : Fin 2) * 128 + 1 * j.val = j.val; rw [d1]; omega

theorem blk0_4 (c : Dev nD) (t : Fin cfg0.N) (j : Fin 128) :
    (iblk0 V c 4 t : Vec Ideal S128 .f32) (ix1 j) = (V c main_arg3 : S128.Idx → EReal) (ix1 j) := by
  obtain ⟨a0, a1, b0, b1, c0, c1, d0, d1, e0, f0, f1, g0, g1⟩ := idx0 t
  unfold iblk0
  rw [View.read_apply]
  show V c main_arg3 _ = V c main_arg3 _
  congr 1
  funext a; apply Fin.ext
  match a with
  | ⟨0, _⟩ => show win0_4.index t (0 : Fin 1) * 128 + 1 * j.val = j.val; rw [e0]; omega

theorem blk0_5 (c : Dev nD) (t : Fin cfg0.N) (k j : Fin 128) :
    (iblk0 V c 5 t : Vec Ideal S128x128 .f32) (ix2 k j) = (V c main_v13 : S128x128.Idx → EReal) (ix2 k j) := by
  obtain ⟨a0, a1, b0, b1, c0, c1, d0, d1, e0, f0, f1, g0, g1⟩ := idx0 t
  unfold iblk0
  rw [View.read_apply]
  show V c main_v13 _ = V c main_v13 _
  congr 1
  funext a; apply Fin.ext
  match a with
  | ⟨0, _⟩ => show win0_5.index t (0 : Fin 2) * 128 + 1 * k.val = k.val; rw [f0]; omega
  | ⟨1, _⟩ => show win0_5.index t (1 : Fin 2) * 128 + 1 * j.val = j.val; rw [f1]; omega

/-- The first layer as one function of the whole arrays the first launch finds. -/
def H1 (c : Dev nD) : S50000x128.Idx → EReal := fun i =>
  layerK (cur (V c main_v28 : S50000x128.Idx → EReal)) (cur (V c main_arg0 : S50000x128.Idx → EReal))
    (col (V c main_v11 : S50000x1.Idx → EReal)) (cur (V c main_v12 : S128x128.Idx → EReal))
    (cur (V c main_v13 : S128x128.Idx → EReal)) (vec (V c main_arg3 : S128.Idx → EReal)) (i 0) (i 1)

/-- What point t writes back is block t of `H1`. -/
theorem flushed0 (c : Dev nD) (t : Fin cfg0.N) :
    (dat0 V c).flushed 6 t = ((cfg0.win 6).blk t).view.read (Elt Ideal) (H1 V c) := by
  obtain ⟨a0, a1, b0, b1, c0, c1, d0, d1, e0, f0, f1, g0, g1⟩ := idx0 t
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2,
    View.ld_unit_zero (S := S128x128) hz2, View.ld_unit_zero (S := S128) hz1]
  funext y
  obtain ⟨p, j, rfl⟩ : ∃ (p : Fin 2000) (j : Fin 128), y = ix2 p j := ⟨y 0, y 1, eq_ix2 y⟩
  have hemb : ((cfg0.win 6).blk t).view.emb (ix2 p j) = ix2 (row0 t p) j := by
    funext a; apply Fin.ext
    match a with
    | ⟨0, _⟩ => show win0_6.index t (0 : Fin 2) * 2000 + 1 * p.val = t.val * 2000 + p.val; rw [g0]; omega
    | ⟨1, _⟩ => show win0_6.index t (1 : Fin 2) * 128 + 1 * j.val = j.val; rw [g1]; omega
  show k0_pay1 (F := Ideal) (iblk0 V c 1 t) (iblk0 V c 2 t) (iblk0 V c 0 t) (iblk0 V c 3 t) (iblk0 V c 5 t) (iblk0 V c 4 t) (ix2 p j)
    = H1 V c (((cfg0.win 6).blk t).view.emb (ix2 p j))
  rw [hemb]
  refine (pay0_apply _ _ _ _ _ _ p j).trans ?_
  show _ = layerK _ _ _ _ _ _ (row0 t p) j
  exact layerK_congr _ _ _ _ _ _ _ _ _ _ _ _ p (row0 t p) j (fun k => blk0_1 V c t p k) (fun k => blk0_0 V c t p k)
    (blk0_2 V c t p) (fun k j => blk0_3 V c t k j) (fun k j => blk0_5 V c t k j) (fun j => blk0_4 V c t j)

/-- An index is in point t's output block iff each coordinate is in the block's range. -/
theorem mem_blk0 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v29).slice (win0_6.rect t)).set ↔ _
  rw [View.set_slice_whole, Rect.mem_set_unit]
  exact Iff.rfl

/-- Every index of the output is in the block of the point that holds its row. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨a0, a1, b0, b1, c0, c1, d0, d1, e0, f0, f1, g0, g1⟩ := idx0 t
  refine ⟨t, flush0_6 t, ?_⟩
  rw [mem_blk0]
  intro a
  match a with
  | ⟨0, _⟩ =>
    show win0_6.index t (0 : Fin 2) * 2000 ≤ (i 0).val ∧ (i 0).val < win0_6.index t (0 : Fin 2) * 2000 + 2000
    rw [g0, ht]; omega
  | ⟨1, _⟩ =>
    show win0_6.index t (1 : Fin 2) * 128 ≤ (i 1).val ∧ (i 1).val < win0_6.index t (1 : Fin 2) * 128 + 128
    rw [g1]; omega

/-- The first launch's output array after its run. -/
theorem final0 (c : Dev nD) : (dat0 V c).arrAt 6 cfg0.N = H1 V c :=
  (dat0 V c).arrAt_eq_of_cover 6 (H1 V c) (fun t _ => flushed0 V c t) cover0

/-! ## The second launch -/

/-- The printed index maps over the grid: the row-blocked windows sit at block (t, 0), the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row p of block t is node row 2000·t + p. -/
def row1 (t : Fin cfg1.N) (p : Fin 2000) : Fin 50000 :=
  ⟨t.val * 2000 + p.val, by have h := t.isLt; have hN : cfg1.N = 25 := N_1; omega⟩

theorem blk1_0 (c : Dev nD) (t : Fin cfg1.N) (p : Fin 2000) (k : Fin 128) :
    (iblk1 V c 0 t : Vec Ideal S2000x128 .f32) (ix2 p k) = (V c main_v29 : S50000x128.Idx → EReal) (ix2 (row1 t p) k) := by
  obtain ⟨a0, a1, b0, b1, c0, c1, d0, d1, e0, f0, f1, g0, g1, h0, i0, i1⟩ := idx1 t
  unfold iblk1
  rw [View.read_apply]
  show V c main_v29 _ = V c main_v29 _
  congr 1
  funext a; apply Fin.ext
  match a with
  | ⟨0, _⟩ => show win1_0.index t (0 : Fin 2) * 2000 + 1 * p.val = t.val * 2000 + p.val; rw [a0]; omega
  | ⟨1, _⟩ => show win1_0.index t (1 : Fin 2) * 128 + 1 * k.val = k.val; rw [a1]; omega

theorem blk1_1 (c : Dev nD) (t : Fin cfg1.N) (p : Fin 2000) (k : Fin 128) :
    (iblk1 V c 1 t : Vec Ideal S2000x128 .f32) (ix2 p k) = (V c main_v41 : S50000x128.Idx → EReal) (ix2 (row1 t p) k) := by
  obtain ⟨a0, a1, b0, b1, c0, c1, d0, d1, e0, f0, f1, g0, g1, h0, i0, i1⟩ := idx1 t
  unfold iblk1
  rw [View.read_apply]
  show V c main_v41 _ = V c main_v41 _
  congr 1
  funext a; apply Fin.ext
  match a with
  | ⟨0, _⟩ => show win1_1.index t (0 : Fin 2) * 2000 + 1 * p.val = t.val * 2000 + p.val; rw [b0]; omega
  | ⟨1, _⟩ => show win1_1.index t (1 : Fin 2) * 128 + 1 * k.val = k.val; rw [b1]; omega

theorem blk1_2 (c : Dev nD) (t : Fin cfg1.N) (p : Fin 2000) :
    (iblk1 V c 2 t : Vec Ideal S2000x1 .f32) (ix2 p 0) = (V c main_v11 : S50000x1.Idx → EReal) (ix2 (row1 t p) 0) := by
  obtain ⟨a0, a1, b0, b1, c0, c1, d0, d1, e0, f0, f1, g0, g1, h0, i0, i1⟩ := idx1 t
  unfold iblk1
  rw [View.read_apply]
  show V c main_v11 _ = V c main_v11 _
  congr 1
  funext a; apply Fin.ext
  match a with
  | ⟨0, _⟩ => show win1_2.index t (0 : Fin 2) * 2000 + 1 * p.val = t.val * 2000 + p.val; rw [c0]; omega
  | ⟨1, _⟩ => show win1_2.index t (1 : Fin 2) * 1 + 1 * 0 = 0; rw [c1]

theorem blk1_3 (c : Dev nD) (t : Fin cfg1.N) (k : Fin 128) (j : Fin 128) :
    (iblk1 V c 3 t : Vec Ideal S128x128 .f32) (ix2 k j) = (V c main_v14 : S128x128.Idx → EReal) (ix2 k j) := by
  obtain ⟨a0, a1, b0, b1, c0, c1, d0, d1, e0, f0, f1, g0, g1, h0, i0, i1⟩ := idx1 t
  unfold iblk1
  rw [View.read_apply]
  show V c main_v14 _ = V c main_v14 _
  congr 1
  funext a; apply Fin.ext
  match a with
  | ⟨0, _⟩ => show win1_3.index t (0 : Fin 2) * 128 + 1 * k.val = k.val; rw [d0]; omega
  | ⟨1, _⟩ => show win1_3.index t (1 : Fin 2) * 128 + 1 * j.val = j.val; rw [d1]; omega

theorem blk1_4 (c : Dev nD) (t : Fin cfg1.N) (j : Fin 128) :
    (iblk1 V c 4 t : Vec Ideal S128 .f32) (ix1 j) = (V c main_arg6 : S128.Idx → EReal) (ix1 j) := by
  obtain ⟨a0, a1, b0, b1, c0, c1, d0, d1, e0, f0, f1, g0, g1, h0, i0, i1⟩ := idx1 t
  unfold iblk1
  rw [View.read_apply]
  show V c main_arg6 _ = V c main_arg6 _
  congr 1
  funext a; apply Fin.ext
  match a with
  | ⟨0, _⟩ => show win1_4.index t (0 : Fin 1) * 128 + 1 * j.val = j.val; rw [e0]; omega

theorem blk1_5 (c : Dev nD) (t : Fin cfg1.N) (k : Fin 128) (j : Fin 128) :
    (iblk1 V c 5 t : Vec Ideal S128x128 .f32) (ix2 k j) = (V c main_v15 : S128x128.Idx → EReal) (ix2 k j) := by
  obtain ⟨a0, a1, b0, b1, c0, c1, d0, d1, e0, f0, f1, g0, g1, h0, i0, i1⟩ := idx1 t
  unfold iblk1
  rw [View.read_apply]
  show V c main_v15 _ = V c main_v15 _
  congr 1
  funext a; apply Fin.ext
  match a with
  | ⟨0, _⟩ => show win1_5.index t (0 : Fin 2) * 128 + 1 * k.val = k.val; rw [f0]; omega
  | ⟨1, _⟩ => show win1_5.index t (1 : Fin 2) * 128 + 1 * j.val = j.val; rw [f1]; omega

theorem blk1_6 (c : Dev nD) (t : Fin cfg1.N) (k : Fin 256) (j : Fin 40) :
    (iblk1 V c 6 t : Vec Ideal S256x40 .f32) (ix2 k j) = (V c main_v16 : S256x40.Idx → EReal) (ix2 k j) := by
  obtain ⟨a0, a1, b0, b1, c0, c1, d0, d1, e0, f0, f1, g0, g1, h0, i0, i1⟩ := idx1 t
  unfold iblk1
  rw [View.read_apply]
  show V c main_v16 _ = V c main_v16 _
  congr 1
  funext a; apply Fin.ext
  match a with
  | ⟨0, _⟩ => show win1_6.index t (0 : Fin 2) * 256 + 1 * k.val = k.val; rw [g0]; omega
  | ⟨1, _⟩ => show win1_6.index t (1 : Fin 2) * 40 + 1 * j.val = j.val; rw [g1]; omega

theorem blk1_7 (c : Dev nD) (t : Fin cfg1.N) (j : Fin 40) :
    (iblk1 V c 7 t : Vec Ideal S40 .f32) (ix1 j) = (V c main_arg9 : S40.Idx → EReal) (ix1 j) := by
  obtain ⟨a0, a1, b0, b1, c0, c1, d0, d1, e0, f0, f1, g0, g1, h0, i0, i1⟩ := idx1 t
  unfold iblk1
  rw [View.read_apply]
  show V c main_arg9 _ = V c main_arg9 _
  congr 1
  funext a; apply Fin.ext
  match a with
  | ⟨0, _⟩ => show win1_7.index t (0 : Fin 1) * 40 + 1 * j.val = j.val; rw [h0]; omega

/-- The second layer as one function of the whole arrays the second launch finds. -/
def H2 (c : Dev nD) : Fin 50000 → Fin 128 → EReal :=
  layerK (cur (V c main_v41 : S50000x128.Idx → EReal)) (cur (V c main_v29 : S50000x128.Idx → EReal))
    (col (V c main_v11 : S50000x1.Idx → EReal)) (cur (V c main_v14 : S128x128.Idx → EReal))
    (cur (V c main_v15 : S128x128.Idx → EReal)) (vec (V c main_arg6 : S128.Idx → EReal))

/-- The log-softmax of the linear head, as one function of the whole arrays the second launch finds. -/
def Out (c : Dev nD) : S50000x40.Idx → EReal := fun i =>
  lsmK (logitsOf (D := 128) (D2 := 256) rfl (cur (V c main_v29 : S50000x128.Idx → EReal)) (H2 V c)
    (cur (V c main_v16 : S256x40.Idx → EReal)) (vec (V c main_arg9 : S40.Idx → EReal))) (i 0) (i 1)

/-- What point t writes back is block t of `Out`. -/
theorem flushed1 (c : Dev nD) (t : Fin cfg1.N) :
    (dat1 V c).flushed 8 t = ((cfg1.win 8).blk t).view.read (Elt Ideal) (Out V c) := by
  obtain ⟨a0, a1, b0, b1, c0, c1, d0, d1, e0, f0, f1, g0, g1, h0, i0, i1⟩ := idx1 t
  show (cfg1.win 8).cut (grid1.coords t) ((dat1 V c).after 8 t) = _
  rw [after1_8]
  unfold out1_8
  rw [View.canon_unit_zero hz2]
  simp only [View.ld_unit_zero (S := S2000x128) hz2, View.ld_unit_zero (S := S2000x1) hz2,
    View.ld_unit_zero (S := S128x128) hz2, View.ld_unit_zero (S := S128) hz1, View.ld_unit_zero (S := S256x40) hz2,
    View.ld_unit_zero (S := S40) hz1]
  funext y
  obtain ⟨p, o, rfl⟩ : ∃ (p : Fin 2000) (o : Fin 40), y = ix2 p o := ⟨y 0, y 1, eq_ix2 y⟩
  have hemb : ((cfg1.win 8).blk t).view.emb (ix2 p o) = ix2 (row1 t p) o := by
    funext a; apply Fin.ext
    match a with
    | ⟨0, _⟩ => show win1_8.index t (0 : Fin 2) * 2000 + 1 * p.val = t.val * 2000 + p.val; rw [i0]; omega
    | ⟨1, _⟩ => show win1_8.index t (1 : Fin 2) * 40 + 1 * o.val = o.val; rw [i1]; omega
  show k1_pay1 (F := Ideal)
      (k1_pay2 (iblk1 V c 0 t) (iblk1 V c 1 t) (iblk1 V c 2 t) (iblk1 V c 3 t) (iblk1 V c 5 t) (iblk1 V c 4 t) (iblk1 V c 6 t) (iblk1 V c 7 t))
      (k1_pay3 (iblk1 V c 0 t) (iblk1 V c 1 t) (iblk1 V c 2 t) (iblk1 V c 3 t) (iblk1 V c 5 t) (iblk1 V c 4 t) (iblk1 V c 6 t) (iblk1 V c 7 t))
      (k1_pay4 (iblk1 V c 0 t) (iblk1 V c 1 t) (iblk1 V c 2 t) (iblk1 V c 3 t) (iblk1 V c 5 t) (iblk1 V c 4 t) (iblk1 V c 6 t) (iblk1 V c 7 t))
      (ix2 p o)
    = Out V c (((cfg1.win 8).blk t).view.emb (ix2 p o))
  rw [hemb]
  refine (pay1_apply _ _ _ _ _ _ _ _ p o).trans ?_
  show _ = lsmK _ (row1 t p) o
  refine lsmK_congr _ _ p (row1 t p) o fun o' => ?_
  refine logitsOf_congr rfl _ _ _ _ _ _ _ _ p (row1 t p) o' (fun k => blk1_0 V c t p k) (fun k => ?_)
    (fun k o => blk1_6 V c t k o) (fun o => blk1_7 V c t o)
  exact layerK_congr _ _ _ _ _ _ _ _ _ _ _ _ p (row1 t p) k (fun k => blk1_1 V c t p k) (fun k => blk1_0 V c t p k)
    (blk1_2 V c t p) (fun k j => blk1_3 V c t k j) (fun k j => blk1_5 V c t k j) (fun j => blk1_4 V c t j)

/-- An index is in point t's output block iff each coordinate is in the block's range. -/
theorem mem_blk1 (t : Fin cfg1.N) (i : S50000x40.Idx) :
    i ∈ ((cfg1.win 8).blk t).view.set ↔ ∀ a : Fin 2, win1_8.index t a * S2000x40.size a ≤ (i a).val
      ∧ (i a).val < win1_8.index t a * S2000x40.size a + S2000x40.size a := by
  show i ∈ ((View.whole main_v42).slice (win1_8.rect t)).set ↔ _
  rw [View.set_slice_whole, Rect.mem_set_unit]
  exact Iff.rfl

/-- Every index of the output is in the block of the point that holds its row. -/
theorem cover1 (i : S50000x40.Idx) :
    ∃ t : Fin cfg1.N, (cfg1.win 8).flush t = true ∧ i ∈ ((cfg1.win 8).blk t).view.set := by
  have hi0 : (i 0).val < 50000 := (i 0).isLt
  have hi1 : (i 1).val < 40 := (i 1).isLt
  have hN : cfg1.N = 25 := N_1
  obtain ⟨t, ht⟩ : ∃ t : Fin cfg1.N, t.val = (i 0).val / 2000 := ⟨⟨(i 0).val / 2000, by omega⟩, rfl⟩
  obtain ⟨a0, a1, b0, b1, c0, c1, d0, d1, e0, f0, f1, g0, g1, h0, i0, i1⟩ := idx1 t
  refine ⟨t, flush1_8 t, ?_⟩
  rw [mem_blk1]
  intro a
  match a with
  | ⟨0, _⟩ =>
    show win1_8.index t (0 : Fin 2) * 2000 ≤ (i 0).val ∧ (i 0).val < win1_8.index t (0 : Fin 2) * 2000 + 2000
    rw [i0, ht]; omega
  | ⟨1, _⟩ =>
    show win1_8.index t (1 : Fin 2) * 40 ≤ (i 1).val ∧ (i 1).val < win1_8.index t (1 : Fin 2) * 40 + 40
    rw [i1]; omega

/-- The second launch's output array after its run. -/
theorem final1 (c : Dev nD) : (dat1 V c).arrAt 8 cfg1.N = Out V c :=
  (dat1 V c).arrAt_eq_of_cover 8 (Out V c) (fun t _ => flushed1 V c t) cover1

end Cert.KernelIdeal.Blocks

end
-- ==== Proof.KerHost.lean ====
/-
  What the host operations around the two grid launches leave in the launches' operand arrays, at the ideal values,
  named by the reference's own stages.

  Before the first launch the host computes, from the arguments alone: the two index rows, the neighbour sums of the
  node features (a gather along the source row, in a narrower float format that is the identity here, scattered with
  addition along the destination row), the reciprocal of the clamped in-degree as a column, and the transposed
  weights.  The reference computes the same terms under other names, so each array IS the reference's stage of the
  same arguments (by unfolding both).  Between the launches the host gathers and scatters the first launch's output
  the same way.
-/
import proofs.«125414_j85985245266463_2_alg».proof.Proof.KerBlocks
import proofs.«125414_j85985245266463_2_alg».proof.Proof.RefReadP
import Idealize.ShloMosaic.Lib.StableHlo.Run

set_option maxRecDepth 65536

noncomputable section

open Idealize.ShloMosaic Idealize.ShloMosaic.TcCoe Idealize.SL.Sem Idealize.ShloMosaic.StableHlo
open Idealize.ShloMosaic.Pipeline (Dat)

namespace Cert.KernelIdeal.HostSide

open Cert.KernelIdeal Cert.KernelIdeal.Gen Cert.KernelIdeal.Blocks Idealize.ShloMosaic.ValueIdx Cert.Sage

variable (m : (ℓ : Loc nD τ sig) → Buf (Elt Ideal) ℓ) (ρ : Dev nD → PrngReg) (c : Dev nD)

/-- Unfolds the three stretches before the first launch and reads one buffer off them. -/
local macro "w3_read" : tactic => `(tactic| (
  dsimp only [W3, W2, W1, W0, hostOps0, hostOps0_1, hostOps0_2]
  simp only [TRef.unary, TRef.binary, TRef.nullary, TRef.of, TRef.toBuf, TRef.ofBuf, cast_eq]
  after_results_simp <;> rfl))

set_option maxHeartbeats 4000000 in
theorem W3_arg0 : W3 m ρ c (Proc.devRef .tc main_arg0) = (m ((c : Thread nD τ).loc main_arg0)) := by w3_read
set_option maxHeartbeats 4000000 in
theorem W3_arg3 : W3 m ρ c (Proc.devRef .tc main_arg3) = (m ((c : Thread nD τ).loc main_arg3)) := by w3_read
set_option maxHeartbeats 4000000 in
theorem W3_arg6 : W3 m ρ c (Proc.devRef .tc main_arg6) = (m ((c : Thread nD τ).loc main_arg6)) := by w3_read
set_option maxHeartbeats 4000000 in
theorem W3_arg9 : W3 m ρ c (Proc.devRef .tc main_arg9) = (m ((c : Thread nD τ).loc main_arg9)) := by w3_read

set_option maxHeartbeats 4000000 in
/-- The two index rows. -/
theorem W3_v1 : W3 m ρ c (Proc.devRef .tc main_v1) = Cert.ReferenceIdeal.ReadP.val_main_v1 (F := Ideal) (m ((c : Thread nD τ).loc main_arg1)) := by w3_read
set_option maxHeartbeats 4000000 in
theorem W3_v3 : W3 m ρ c (Proc.devRef .tc main_v3) = Cert.ReferenceIdeal.ReadP.val_main_v3 (F := Ideal) (m ((c : Thread nD τ).loc main_arg1)) := by w3_read

set_option maxHeartbeats 4000000 in
/-- The neighbour sums of the node features. -/
theorem W3_v28 : W3 m ρ c (Proc.devRef .tc main_v28)
    = Cert.ReferenceIdeal.ReadP.val_main_v13 (F := Ideal) (m ((c : Thread nD τ).loc main_arg0)) (m ((c : Thread nD τ).loc main_arg1)) := by w3_read

set_option maxHeartbeats 4000000 in
/-- The transposed weights. -/
theorem W3_v12 : W3 m ρ c (Proc.devRef .tc main_v12) = Cert.ReferenceIdeal.ReadP.val_main_v22 (F := Ideal) (m ((c : Thread nD τ).loc main_arg2)) := by w3_read
set_option maxHeartbeats 4000000 in
theorem W3_v13 : W3 m ρ c (Proc.devRef .tc main_v13) = Cert.ReferenceIdeal.ReadP.val_main_v27 (F := Ideal) (m ((c : Thread nD τ).loc main_arg4)) := by w3_read
set_option maxHeartbeats 4000000 in
theorem W3_v14 : W3 m ρ c (Proc.devRef .tc main_v14) = Cert.ReferenceIdeal.ReadP.val_main_v49 (F := Ideal) (m ((c : Thread nD τ).loc main_arg5)) := by w3_read
set_option maxHeartbeats 4000000 in
theorem W3_v15 : W3 m ρ c (Proc.devRef .tc main_v15) = Cert.ReferenceIdeal.ReadP.val_main_v54 (F := Ideal) (m ((c : Thread nD τ).loc main_arg7)) := by w3_read
set_option maxHeartbeats 4000000 in
theorem W3_v16 : W3 m ρ c (Proc.devRef .tc main_v16) = Cert.ReferenceIdeal.ReadP.val_main_v59 (F := Ideal) (m ((c : Thread nD τ).loc main_arg8)) := by w3_read

set_option maxHeartbeats 4000000 in
/-- The reciprocal of the clamped in-degree, as a column. -/
theorem W3_v11 : W3 m ρ c (Proc.devRef .tc main_v11)
    = shapeCast S50000x1 (Host.divf (F := Ideal) (broadcastInDim S50000 ![] bcast_S_S50000 (constant (F := Ideal) S_ .f32 0x3F800000#32))
        (Cert.ReferenceIdeal.ReadP.val_main_v18 (F := Ideal) (m ((c : Thread nD τ).loc main_arg1)))) shapeCasts_S50000_S50000x1 := by w3_read

/-! ## Across the first launch -/

theorem W4_v1 : W4 m ρ c (Proc.devRef .tc main_v1) = Cert.ReferenceIdeal.ReadP.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v14 : W4 m ρ c (Proc.devRef .tc main_v14) = Cert.ReferenceIdeal.ReadP.val_main_v49 (F := Ideal) (m ((c : Thread nD τ).loc main_arg5)) :=
  (W4_of_ne m ρ c main_v14 (by decide)).trans (W3_v14 m ρ c)
theorem W4_v15 : W4 m ρ c (Proc.devRef .tc main_v15) = Cert.ReferenceIdeal.ReadP.val_main_v54 (F := Ideal) (m ((c : Thread nD τ).loc main_arg7)) :=
  (W4_of_ne m ρ c main_v15 (by decide)).trans (W3_v15 m ρ c)
theorem W4_v16 : W4 m ρ c (Proc.devRef .tc main_v16) = Cert.ReferenceIdeal.ReadP.val_main_v59 (F := Ideal) (m ((c : Thread nD τ).loc main_arg8)) :=
  (W4_of_ne m ρ c main_v16 (by decide)).trans (W3_v16 m ρ c)
theorem W4_arg6 : W4 m ρ c (Proc.devRef .tc main_arg6) = (m ((c : Thread nD τ).loc main_arg6)) :=
  (W4_of_ne m ρ c main_arg6 (by decide)).trans (W3_arg6 m ρ c)
theorem W4_arg9 : W4 m ρ c (Proc.devRef .tc main_arg9) = (m ((c : Thread nD τ).loc main_arg9)) :=
  (W4_of_ne m ρ c main_arg9 (by decide)).trans (W3_arg9 m ρ c)
/-- The degree column is an input of the first launch: it comes out as it went in. -/
theorem W4_v11 : W4 m ρ c (Proc.devRef .tc main_v11) = W3 m ρ c (Proc.devRef .tc main_v11) :=
  (W4_arr m ρ c 2).trans (((dat0 (V3 m ρ) c).arrAt_in 2 rfl _).trans (A_eq0 (V3 m ρ) c 2))
/-- The first launch's output array. -/
theorem W4_v29 : W4 m ρ c (Proc.devRef .tc main_v29) = H1 (V3 m ρ) c :=
  (W4_arr m ρ c 6).trans (final0 (V3 m ρ) c)

/-! ## The stretch between the launches -/

/-- Reads one buffer off the stretch between the launches, down to the contents the first launch left. -/
local macro "w5_read" : tactic => `(tactic| (
  dsimp only [W5, hostOps1]
  after_results_simp))

set_option maxHeartbeats 4000000 in
theorem W5_v29 : W5 m ρ c (Proc.devRef .tc main_v29) = W4 m ρ c (Proc.devRef .tc main_v29) := by w5_read
set_option maxHeartbeats 4000000 in
theorem W5_v11 : W5 m ρ c (Proc.devRef .tc main_v11) = W4 m ρ c (Proc.devRef .tc main_v11) := by w5_read
set_option maxHeartbeats 4000000 in
theorem W5_v14 : W5 m ρ c (Proc.devRef .tc main_v14) = W4 m ρ c (Proc.devRef .tc main_v14) := by w5_read
set_option maxHeartbeats 4000000 in
theorem W5_v15 : W5 m ρ c (Proc.devRef .tc main_v15) = W4 m ρ c (Proc.devRef .tc main_v15) := by w5_read
set_option maxHeartbeats 4000000 in
theorem W5_v16 : W5 m ρ c (Proc.devRef .tc main_v16) = W4 m ρ c (Proc.devRef .tc main_v16) := by w5_read
set_option maxHeartbeats 4000000 in
theorem W5_arg6 : W5 m ρ c (Proc.devRef .tc main_arg6) = W4 m ρ c (Proc.devRef .tc main_arg6) := by w5_read
set_option maxHeartbeats 4000000 in
theorem W5_arg9 : W5 m ρ c (Proc.devRef .tc main_arg9) = W4 m ρ c (Proc.devRef .tc main_arg9) := by w5_read

set_option maxHeartbeats 8000000 in
/-- The neighbour sums of the first layer's features: the reference's stage, once the first launch's output is the
    reference's first layer. -/
theorem W5_v41 (x0 : (⟨Cert.ReferenceIdeal.S50000x128, .f32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x128, .f32⟩ : BufTy).Contents (Elt Ideal))
    (h29 : W4 m ρ c (Proc.devRef .tc main_v29)
      = Cert.ReferenceIdeal.ReadP.val_main_v30 (F := Ideal) x0 (m ((c : Thread nD τ).loc main_arg1)) x2 x3 x4) :
    W5 m ρ c (Proc.devRef .tc main_v41)
      = Cert.ReferenceIdeal.ReadP.val_main_v40 (F := Ideal) x0 (m ((c : Thread nD τ).loc main_arg1)) x2 x3 x4 := by
  dsimp only [W5, hostOps1]
  after_results_simp
  rw [W4_v1, W4_v3, h29]
  rfl

end Cert.KernelIdeal.HostSide

end
-- ==== Proof.RefIs.lean ====
/-
  The reference's stages read at an entry: its two layers are `Cert.Sage.layerR` of the stages before them, and its
  result is the log-softmax `Cert.Sage.lsmR` of the linear head `Cert.Sage.logitsOf` on the two layers' features.

  Each host operation is read at (row, lane) by its generated read-at-an-index lemma; the index functions those lemmas
  compute reduce, at an index given by its coordinates, to the coordinates one expects (a matrix product reads row r of
  the left operand and column j of the right one, a bias row is read at its lane, a per-row statistic at its row).  The
  row maximum is the fold of max over the row from −∞, and max with −∞ once more changes nothing; the row sum starts
  from the zero pattern, which adds nothing.
-/
import proofs.«125414_j85985245266463_2_alg».proof.Proof.RefReadP
import proofs.«125414_j85985245266463_2_alg».proof.Proof.LibRowOps
import proofs.«125414_j85985245266463_2_alg».proof.Proof.LibLaneConcat
import proofs.«125414_j85985245266463_2_alg».proof.Proof.Sage
import Idealize.ShloMosaic.PureOps.Reduce

noncomputable section

open scoped BigOperators

namespace Cert.ReferenceIdeal.RefIs

open Cert.ReferenceIdeal Cert.ReferenceIdeal.Gen Cert.ReferenceIdeal.ReadP Idealize.ShloMosaic Idealize.ShloMosaic.ValueIdx Cert.Sage

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S40x256, .f32⟩ : BufTy).Contents (Elt Ideal)) (x9 : (⟨S40, .f32⟩ : BufTy).Contents (Elt Ideal))

/-- The zero pattern is the real zero, the pattern of −∞ the bottom. -/
theorem ofBits_neg_inf : Ideal.ofBits .f32 0xFF800000#32 = (⊥ : EReal) := by
  simp [Ideal.ofBits, Ideal.ieee]

/-! ## The first layer -/

theorem clip1_at (r : Fin 50000) (j : Fin 128) : val_main_v20 (F := Ideal) x1 (ix2 r j) = val_main_v18 (F := Ideal) x1 (ix1 r) :=
  (val_main_v20_apply x1 _).trans ((val_main_v19_apply x1 _).trans (congrArg (val_main_v18 (F := Ideal) x1)
    (funext fun a => Fin.ext (by match a with | ⟨0, _⟩ => rfl))))

theorem bias1_at (r : Fin 50000) (j : Fin 128) : val_main_v25 (F := Ideal) x3 (ix2 r j) = x3 (ix1 j) :=
  (val_main_v25_apply x3 _).trans ((val_main_v24_apply x3 _).trans (congrArg x3
    (funext fun a => Fin.ext (by match a with | ⟨0, _⟩ => rfl))))

theorem dot23_at (r : Fin 50000) (j : Fin 128) :
    val_main_v23 (F := Ideal) x0 x1 x2 (ix2 r j)
      = ∑ k : Fin 128, val_main_v21 (F := Ideal) x0 x1 (ix2 r k) * val_main_v22 (F := Ideal) x2 (ix2 k j) :=
  (val_main_v23_apply x0 x1 x2 _).trans (Finset.sum_congr rfl fun k _ => by
    have el : lidx_main_v23 (ix2 r j) k = ix2 r k :=
      funext fun a => Fin.ext (by match a with | ⟨0, _⟩ => rfl | ⟨1, _⟩ => rfl)
    have er : ridx_main_v23 (ix2 r j) k = ix2 k j :=
      funext fun a => Fin.ext (by match a with | ⟨0, _⟩ => rfl | ⟨1, _⟩ => rfl)
    rw [el, er])

theorem dot28_at (r : Fin 50000) (j : Fin 128) :
    val_main_v28 (F := Ideal) x0 x4 (ix2 r j) = ∑ k : Fin 128, x0 (ix2 r k) * val_main_v27 (F := Ideal) x4 (ix2 k j) :=
  (val_main_v28_apply x0 x4 _).trans (Finset.sum_congr rfl fun k _ => by
    have el : lidx_main_v28 (ix2 r j) k = ix2 r k :=
      funext fun a => Fin.ext (by match a with | ⟨0, _⟩ => rfl | ⟨1, _⟩ => rfl)
    have er : ridx_main_v28 (ix2 r j) k = ix2 k j :=
      funext fun a => Fin.ext (by match a with | ⟨0, _⟩ => rfl | ⟨1, _⟩ => rfl)
    rw [el, er])

theorem zero1_at (i : S50000x128.Idx) : val_main_call1_v0 (F := Ideal) i = 0 :=
  (val_main_call1_v0_apply i).trans ((val_main_call1_cst_apply _).trans Ideal.ofBits_zero_f32)

/-- The first layer's features at (r, j). -/
theorem h1_apply (r : Fin 50000) (j : Fin 128) :
    val_main_v30 (F := Ideal) x0 x1 x2 x3 x4 (ix2 r j)
      = layerR (cur (val_main_v13 (F := Ideal) x0 x1)) (cur x0) (vec (val_main_v18 (F := Ideal) x1))
          (cur (val_main_v22 (F := Ideal) x2)) (cur (val_main_v27 (F := Ideal) x4)) (vec x3) r j := by
  rw [val_main_v30_apply, val_main_v29_apply, val_main_v26_apply, dot23_at, bias1_at, dot28_at, zero1_at]
  simp only [Ideal.maximumf_def, Ideal.addf_def]
  have es : ∀ k : Fin 128, val_main_v21 (F := Ideal) x0 x1 (ix2 r k) * val_main_v22 (F := Ideal) x2 (ix2 k j)
      = Ideal.div (val_main_v13 (F := Ideal) x0 x1 (ix2 r k)) (val_main_v18 (F := Ideal) x1 (ix1 r))
        * val_main_v22 (F := Ideal) x2 (ix2 k j) := fun k => by
    rw [val_main_v21_apply, clip1_at, Ideal.hostDivf_def]
  simp only [es]
  rfl

/-! ## The second layer -/

theorem clip2_at (r : Fin 50000) (j : Fin 128) : val_main_v47 (F := Ideal) x1 (ix2 r j) = val_main_v45 (F := Ideal) x1 (ix1 r) :=
  (val_main_v47_apply x1 _).trans ((val_main_v46_apply x1 _).trans (congrArg (val_main_v45 (F := Ideal) x1)
    (funext fun a => Fin.ext (by match a with | ⟨0, _⟩ => rfl))))

theorem bias2_at (r : Fin 50000) (j : Fin 128) : val_main_v52 (F := Ideal) x6 (ix2 r j) = x6 (ix1 j) :=
  (val_main_v52_apply x6 _).trans ((val_main_v51_apply x6 _).trans (congrArg x6
    (funext fun a => Fin.ext (by match a with | ⟨0, _⟩ => rfl))))

theorem dot50_at (r : Fin 50000) (j : Fin 128) :
    val_main_v50 (F := Ideal) x0 x1 x2 x3 x4 x5 (ix2 r j)
      = ∑ k : Fin 128, val_main_v48 (F := Ideal) x0 x1 x2 x3 x4 (ix2 r k) * val_main_v49 (F := Ideal) x5 (ix2 k j) :=
  (val_main_v50_apply x0 x1 x2 x3 x4 x5 _).trans (Finset.sum_congr rfl fun k _ => by
    have el : lidx_main_v50 (ix2 r j) k = ix2 r k :=
      funext fun a => Fin.ext (by match a with | ⟨0, _⟩ => rfl | ⟨1, _⟩ => rfl)
    have er : ridx_main_v50 (ix2 r j) k = ix2 k j :=
      funext fun a => Fin.ext (by match a with | ⟨0, _⟩ => rfl | ⟨1, _⟩ => rfl)
    rw [el, er])

theorem dot55_at (r : Fin 50000) (j : Fin 128) :
    val_main_v55 (F := Ideal) x0 x1 x2 x3 x4 x7 (ix2 r j)
      = ∑ k : Fin 128, val_main_v30 (F := Ideal) x0 x1 x2 x3 x4 (ix2 r k) * val_main_v54 (F := Ideal) x7 (ix2 k j) :=
  (val_main_v55_apply x0 x1 x2 x3 x4 x7 _).trans (Finset.sum_congr rfl fun k _ => by
    have el : lidx_main_v55 (ix2 r j) k = ix2 r k :=
      funext fun a => Fin.ext (by match a with | ⟨0, _⟩ => rfl | ⟨1, _⟩ => rfl)
    have er : ridx_main_v55 (ix2 r j) k = ix2 k j :=
      funext fun a => Fin.ext (by match a with | ⟨0, _⟩ => rfl | ⟨1, _⟩ => rfl)
    rw [el, er])

theorem zero2_at (i : S50000x128.Idx) : val_main_call3_v0 (F := Ideal) i = 0 :=
  (val_main_call3_v0_apply i).trans ((val_main_call3_cst_apply _).trans Ideal.ofBits_zero_f32)

/-- The second layer's features at (r, j). -/
theorem h2_apply (r : Fin 50000) (j : Fin 128) :
    val_main_v57 (F := Ideal) x0 x1 x2 x3 x4 x5 x6 x7 (ix2 r j)
      = layerR (cur (val_main_v40 (F := Ideal) x0 x1 x2 x3 x4)) (cur (val_main_v30 (F := Ideal) x0 x1 x2 x3 x4))
          (vec (val_main_v45 (F := Ideal) x1)) (cur (val_main_v49 (F := Ideal) x5)) (cur (val_main_v54 (F := Ideal) x7))
          (vec x6) r j := by
  rw [val_main_v57_apply, val_main_v56_apply, val_main_v53_apply, dot50_at, bias2_at, dot55_at, zero2_at]
  simp only [Ideal.maximumf_def, Ideal.addf_def]
  have es : ∀ k : Fin 128, val_main_v48 (F := Ideal) x0 x1 x2 x3 x4 (ix2 r k) * val_main_v49 (F := Ideal) x5 (ix2 k j)
      = Ideal.div (val_main_v40 (F := Ideal) x0 x1 x2 x3 x4 (ix2 r k)) (val_main_v45 (F := Ideal) x1 (ix1 r))
        * val_main_v49 (F := Ideal) x5 (ix2 k j) := fun k => by
    rw [val_main_v48_apply, clip2_at, Ideal.hostDivf_def]
  simp only [es]
  rfl

/-! ## The head and the log-softmax -/

theorem bias3_at (r : Fin 50000) (o : Fin 40) : val_main_v62 (F := Ideal) x9 (ix2 r o) = x9 (ix1 o) :=
  (val_main_v62_apply x9 _).trans ((val_main_v61_apply x9 _).trans (congrArg x9
    (funext fun a => Fin.ext (by match a with | ⟨0, _⟩ => rfl))))

theorem dot60_at (r : Fin 50000) (o : Fin 40) :
    val_main_v60 (F := Ideal) x0 x1 x2 x3 x4 x5 x6 x7 x8 (ix2 r o)
      = ∑ k : Fin 256, val_main_v58 (F := Ideal) x0 x1 x2 x3 x4 x5 x6 x7 (ix2 r k) * val_main_v59 (F := Ideal) x8 (ix2 k o) :=
  (val_main_v60_apply x0 x1 x2 x3 x4 x5 x6 x7 x8 _).trans (Finset.sum_congr rfl fun k _ => by
    have el : lidx_main_v60 (ix2 r o) k = ix2 r k :=
      funext fun a => Fin.ext (by match a with | ⟨0, _⟩ => rfl | ⟨1, _⟩ => rfl)
    have er : ridx_main_v60 (ix2 r o) k = ix2 k o :=
      funext fun a => Fin.ext (by match a with | ⟨0, _⟩ => rfl | ⟨1, _⟩ => rfl)
    rw [el, er])

/-- The logits at (r, o). -/
theorem logits_apply (r : Fin 50000) (o : Fin 40) :
    val_main_v63 (F := Ideal) x0 x1 x2 x3 x4 x5 x6 x7 x8 x9 (ix2 r o)
      = logitsOf (D := 128) (D2 := 256) rfl (cur (val_main_v30 (F := Ideal) x0 x1 x2 x3 x4)) (cur (val_main_v57 (F := Ideal) x0 x1 x2 x3 x4 x5 x6 x7))
          (cur (val_main_v59 (F := Ideal) x8)) (vec x9) r o := by
  rw [val_main_v63_apply, dot60_at, bias3_at, Ideal.addf_def]
  have es : ∀ k : Fin 256, val_main_v58 (F := Ideal) x0 x1 x2 x3 x4 x5 x6 x7 (ix2 r k)
      = cat (D := 128) (D2 := 256) rfl (cur (val_main_v30 (F := Ideal) x0 x1 x2 x3 x4)) (cur (val_main_v57 (F := Ideal) x0 x1 x2 x3 x4 x5 x6 x7)) r k :=
    fun k => by
      unfold val_main_v58
      rw [Cert.LaneConcat.concat_apply]
      rfl
  simp only [es]
  rfl

/-- A maximum over the lanes, folded by the host from −∞, at row r: the fold of max over the row. -/
theorem fold_at (y0 : FVec Ideal S50000x40 .f32) (r : Fin 50000) :
    Host.reduce (FloatOps.maximumf (F := Ideal) (φ := .f32)) y0 (val_main_call4_cst (F := Ideal))
        reducesTo_S50000x40_S50000_d1 h_S_ (ix1 r)
      = rowMax (fun o => y0 (ix2 r o)) := by
  have h : Shape.Reduces S50000x40 [1] S50000 := by decide
  refine (Host.reduce_eq_fold_single (FloatOps.maximumf (F := Ideal) (φ := .f32)) y0 _ reducesTo_S50000x40_S50000_d1 h h_S_
    (ix1 r)).trans ?_
  have hi : val_main_call4_cst (F := Ideal) (Shape.Idx.first h_S_) = (⊥ : EReal) :=
    (val_main_call4_cst_apply _).trans ofBits_neg_inf
  have hf : (y0 ∘ h.lift (ix1 r)) = fun k : Fin 40 => y0 (ix2 r k) :=
    funext fun k => congrArg y0 (funext fun a => Fin.ext (by match a with | ⟨0, _⟩ => rfl | ⟨1, _⟩ => rfl))
  rw [hi, hf]
  rfl

/-- The row maximum the reference subtracts, at row r. -/
theorem rowmax_at (r : Fin 50000) :
    val_main_call4_v2 (F := Ideal) x0 x1 x2 x3 x4 x5 x6 x7 x8 x9 (ix1 r)
      = rowMax (fun o => val_main_v63 (F := Ideal) x0 x1 x2 x3 x4 x5 x6 x7 x8 x9 (ix2 r o)) := by
  rw [val_main_call4_v2_apply, Ideal.maximumf_def]
  have e1 : val_main_call4_v1 (F := Ideal) (ix1 r) = (⊥ : EReal) :=
    (val_main_call4_v1_apply _).trans ((val_main_call4_cst_0_apply _).trans ofBits_neg_inf)
  have e0 : val_main_call4_v0 (F := Ideal) x0 x1 x2 x3 x4 x5 x6 x7 x8 x9 (ix1 r)
      = rowMax (fun o => val_main_v63 (F := Ideal) x0 x1 x2 x3 x4 x5 x6 x7 x8 x9 (ix2 r o)) := by
    unfold val_main_call4_v0
    generalize val_main_v63 (F := Ideal) x0 x1 x2 x3 x4 x5 x6 x7 x8 x9 = y0
    exact fold_at y0 r
  rw [e0, e1, max_bot_left]

/-- The reference's result at (r, o). -/
theorem out_apply (r : Fin 50000) (o : Fin 40) :
    val_main_v64 (F := Ideal) x0 x1 x2 x3 x4 x5 x6 x7 x8 x9 (ix2 r o)
      = lsmR (logitsOf (D := 128) (D2 := 256) rfl (cur (val_main_v30 (F := Ideal) x0 x1 x2 x3 x4))
          (cur (val_main_v57 (F := Ideal) x0 x1 x2 x3 x4 x5 x6 x7)) (cur (val_main_v59 (F := Ideal) x8)) (vec x9)) r o := by
  have eL : (cur (val_main_v63 (F := Ideal) x0 x1 x2 x3 x4 x5 x6 x7 x8 x9))
      = logitsOf (D := 128) (D2 := 256) rfl (cur (val_main_v30 (F := Ideal) x0 x1 x2 x3 x4))
          (cur (val_main_v57 (F := Ideal) x0 x1 x2 x3 x4 x5 x6 x7)) (cur (val_main_v59 (F := Ideal) x8)) (vec x9) :=
    funext fun r => funext fun o => logits_apply x0 x1 x2 x3 x4 x5 x6 x7 x8 x9 r o
  rw [← eL]
  have m4 : ∀ o' : Fin 40, val_main_call4_v4 (F := Ideal) x0 x1 x2 x3 x4 x5 x6 x7 x8 x9 (ix2 r o')
      = rowMax (cur (val_main_v63 (F := Ideal) x0 x1 x2 x3 x4 x5 x6 x7 x8 x9) r) := fun o' =>
    (val_main_call4_v4_apply x0 x1 x2 x3 x4 x5 x6 x7 x8 x9 _).trans ((val_main_call4_v3_apply x0 x1 x2 x3 x4 x5 x6 x7 x8 x9 _).trans
      ((congrArg (val_main_call4_v2 (F := Ideal) x0 x1 x2 x3 x4 x5 x6 x7 x8 x9)
        (funext fun a => Fin.ext (by match a with | ⟨0, _⟩ => rfl))).trans (rowmax_at x0 x1 x2 x3 x4 x5 x6 x7 x8 x9 r)))
  have s10 : val_main_call4_v10 (F := Ideal) x0 x1 x2 x3 x4 x5 x6 x7 x8 x9 (ix2 r o)
      = Ideal.log (∑ o' : Fin 40, Ideal.exp (val_main_v63 (F := Ideal) x0 x1 x2 x3 x4 x5 x6 x7 x8 x9 (ix2 r o')
          - rowMax (cur (val_main_v63 (F := Ideal) x0 x1 x2 x3 x4 x5 x6 x7 x8 x9) r))) := by
    refine (val_main_call4_v10_apply x0 x1 x2 x3 x4 x5 x6 x7 x8 x9 _).trans ?_
    rw [val_main_call4_v9_apply, Ideal.hostUnary_log_def]
    refine congrArg Ideal.log ?_
    refine (val_main_call4_v8_apply x0 x1 x2 x3 x4 x5 x6 x7 x8 x9 _).trans ?_
    refine (val_main_call4_v7_apply x0 x1 x2 x3 x4 x5 x6 x7 x8 x9 _).trans ?_
    have hz : val_main_call4_cst_1 (F := Ideal) (Shape.Idx.first h_S_) = 0 :=
      (val_main_call4_cst_1_apply _).trans Ideal.ofBits_zero_f32
    rw [hz, zero_add]
    refine Finset.sum_congr rfl fun k _ => ?_
    rw [val_main_call4_v6_apply, val_main_call4_v5_apply, Ideal.hostUnary_exp_def, Ideal.subf_def]
    have hk : idx_main_call4_v7 (idx_main_call4_v8 (idx_main_call4_v10 (ix2 r o))) k = ix2 r k :=
      funext fun a => Fin.ext (by match a with | ⟨0, _⟩ => rfl | ⟨1, _⟩ => rfl)
    rw [hk, m4]
  rw [val_main_v64_apply, val_main_call4_v5_apply, Ideal.subf_def, Ideal.subf_def, m4, s10]
  rfl

end Cert.ReferenceIdeal.RefIs

end
-- ==== Proof.Finite.lean ====
/-
  From the precondition to real entries: every float argument array holds real numbers.

  The precondition is a conjunction, one conjunct per float argument, each saying that |x| < +∞ at every index
  (a reduction by `and` of the comparisons, from the constant one, equal to one).  A reduction by `and` that is one
  had a one at every index; a comparison |x| < +∞ that holds leaves x neither +∞ nor −∞, that is, a real.
-/
import proofs.«125414_j85985245266463_2_alg».proof.Pre_finite_inputs
import Idealize.ShloMosaic.Lib.ReduceAll
import Idealize.ShloMosaic.Lib.ValueIdx
import Idealize.ShloMosaic.PureOps.Ideal.Laws
import proofs.«125414_j85985245266463_2_alg».proof.Proof.Sage

noncomputable section

namespace Cert.Pre_finite_inputs.Finite

open Cert.Pre_finite_inputs Idealize.ShloMosaic Idealize.ShloMosaic.ValueIdx Cert.Sage

/-- An extended real whose absolute value compares below the pattern of +∞ is a real. -/
theorem isR_of_abs_lt (x : EReal)
    (h : FloatOps.cmpf (F := Ideal) (φ := .f32) .olt (FloatOps.hostAbsf (F := Ideal) (φ := .f32) x) (Ideal.ofBits .f32 0x7F800000#32) = 1#1) :
    IsR x := by
  have hinf : Ideal.ofBits .f32 0x7F800000#32 = (⊤ : EReal) := by simp [Ideal.ofBits, Ideal.ieee]
  rw [hinf] at h
  have hlt : Max.max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (Max.max x (-x) < (⊤ : EReal))) = 0#1
      rw [decide_eq_false hn]; rfl
    rw [this] at h
    exact absurd h (by decide)
  induction x using EReal.rec with
  | bot => exact absurd hlt (by simp)
  | coe r => exact ⟨r, rfl⟩
  | top => exact absurd hlt (by simp)

instance : Subsingleton S_.Idx := ⟨fun a b => funext fun d => d.elim0⟩

variable [Facts]
open Facts

/-- One conjunct: an array all of whose entries compare below +∞ in absolute value has real entries. -/
theorem real_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32)))
        (constantI S_ 1 1#1) hr h_S_ ix0 = 1#1) (i : s.Idx) : IsR (x i) :=
  isR_of_abs_lt (x i) (Host.reduce_andi_all _ _ hr h_S_ ix0 h i)

/-- The precondition gives every float argument real entries. -/
theorem real_of_pre (x0 : FVec Ideal S50000x128 .f32) (x1 : IVec S2x800000 32) (x2 : FVec Ideal S128x128 .f32)
    (x3 : FVec Ideal S128 .f32) (x4 x5 : FVec Ideal S128x128 .f32) (x6 : FVec Ideal S128 .f32) (x7 : FVec Ideal S128x128 .f32)
    (x8 : FVec Ideal S40x256 .f32) (x9 : FVec Ideal S40 .f32)
    (h : fn (F := Ideal) x0 x1 x2 x3 x4 x5 x6 x7 x8 x9 = fun _ => 1#1) :
    (∀ i, IsR (x0 i)) ∧ (∀ i, IsR (x2 i)) ∧ (∀ i, IsR (x3 i)) ∧ (∀ i, IsR (x4 i)) ∧ (∀ i, IsR (x5 i)) ∧ (∀ i, IsR (x6 i))
      ∧ (∀ i, IsR (x7 i)) ∧ (∀ i, IsR (x8 i)) ∧ (∀ i, IsR (x9 i)) := by
  have h0 := congrFun h ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ e0, real_of_all x2 _ _ e2, real_of_all x3 _ _ e3, real_of_all x4 _ _ e4, real_of_all x5 _ _ e5,
    real_of_all x6 _ _ e6, real_of_all x7 _ _ e7, real_of_all x8 _ _ e8, real_of_all x9 _ _ e9⟩

end Cert.Pre_finite_inputs.Finite

end
-- ==== Proof.Bridge.lean ====
/-
  The two idealized programs compute one function of the arguments.

  Under the precondition every float argument holds reals.  The in-degree of a node is a sum of ones, so the clamped
  degree max(1, deg) is a real that is at least one; a gather picks entries of its operand and a scatter with addition
  adds finitely many of them to a zero, so the neighbour sums of real features are real; sums, products, quotients by a
  nonzero real and maxima of reals are real.  Hence both layers' features and the logits are real.

  With the degree a nonzero real, the kernel's layer (the neighbour sums times the degree's reciprocal, bias last) is
  the reference's layer (the sums divided by the degree, bias in the middle); with the logits real, the kernel's
  log-softmax ℓ − (m + log Σ) is the reference's (ℓ − m) − log Σ.  The neighbour sums themselves are the same gather and
  scatter of the same arrays on both sides and are never opened.
-/
import proofs.«125414_j85985245266463_2_alg».proof.Proof.KerHost
import proofs.«125414_j85985245266463_2_alg».proof.Proof.RefIs
import proofs.«125414_j85985245266463_2_alg».proof.Proof.Finite
import proofs.«125414_j85985245266463_2_alg».proof.Proof.LibRowOps

set_option maxRecDepth 65536

noncomputable section

open scoped BigOperators
open Idealize.ShloMosaic Idealize.ShloMosaic.TcCoe Idealize.SL.Sem Idealize.ShloMosaic.ValueIdx
open Idealize.ShloMosaic.Pipeline (Dat)

namespace Cert.Bridge

open Cert.Sage
open Cert.ReferenceIdeal.ReadP (val_main_v9 val_main_v10 val_main_v11 val_main_v12 val_main_v13 val_main_v14 val_main_v15 val_main_v16 val_main_v17
  val_main_v18 val_main_v22 val_main_v27 val_main_v30 val_main_v36 val_main_v37 val_main_v38 val_main_v39 val_main_v40 val_main_v45 val_main_v49 val_main_v54
  val_main_v57 val_main_v59 val_main_v63 val_main_v64 val_main_call0_v1)

/-! ## Real entries of the reference's stages -/

section Reals

open Cert.ReferenceIdeal

theorem ofBits_one : Ideal.ofBits .f32 0x3F800000#32 = (1 : EReal) := by
  simp [Ideal.ofBits, Ideal.ieee]
  rw [← EReal.coe_mul]
  norm_num

/-- A scatter with addition of real updates into a real operand is real. -/
theorem scatterAdd_real {s si u : Shape} {w : Nat} (d : ScatterDims s si u) (x : FVec Ideal s .f32) (idx : IVec si w)
    (upd : FVec Ideal u .f32) (hx : ∀ i, IsR (x i)) (hu : ∀ j, IsR (upd j)) (i : s.Idx) :
    IsR (Host.scatterAdd (F := Ideal) d x idx upd i) := by
  show IsR (x i + ∑ j ∈ Finset.univ.filter (fun j => d.resultIdx? j idx = some i), upd j)
  exact IsR.add (hx i) (IsR.sum _ _ hu)

/-- A gather from a real operand is real. -/
theorem gather_real {s si t : Shape} {w : Nat} (d : GatherDims s si t) (x : s.Idx → EReal) (idx : IVec si w)
    (hx : ∀ i, IsR (x i)) (j : t.Idx) : IsR (Host.gather d x idx j) := hx _

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S40x256, .f32⟩ : BufTy).Contents (Elt Ideal)) (x9 : (⟨S40, .f32⟩ : BufTy).Contents (Elt Ideal))

/-- The in-degree is real. -/
theorem deg_real (i : S50000.Idx) : IsR (val_main_v17 (F := Ideal) x1 i) := by
  unfold val_main_v17
  refine scatterAdd_real _ _ _ _ (fun i => ?_) (fun j => ?_) i
  · rw [Cert.ReferenceIdeal.ReadP.val_main_v15_apply, Cert.ReferenceIdeal.ReadP.val_main_cst_2_apply]
    exact ⟨0, Ideal.ofBits_zero_f32⟩
  · rw [Cert.ReferenceIdeal.ReadP.val_main_v14_apply, Cert.ReferenceIdeal.ReadP.val_main_cst_1_apply]
    exact ⟨1, ofBits_one⟩

/-- The clamped in-degree is a nonzero real. -/
theorem clip_unit (r : Fin 50000) : IsUnit' (val_main_v18 (F := Ideal) x1 (ix1 r)) := by
  rw [Cert.ReferenceIdeal.ReadP.val_main_v18_apply, Ideal.maximumf_def]
  have e : val_main_call0_v1 (F := Ideal) (ix1 r) = (1 : EReal) :=
    (Cert.ReferenceIdeal.ReadP.val_main_call0_v1_apply _).trans ((Cert.ReferenceIdeal.ReadP.val_main_call0_v0_apply _).trans
      ((Cert.ReferenceIdeal.ReadP.val_main_cst_3_apply _).trans ofBits_one))
  rw [e]
  exact isUnit'_max_one (deg_real x1 _)

/-- The second layer's clamped degree is the first's: the same operations of the same index row. -/
theorem clip2_eq : val_main_v45 (F := Ideal) x1 = val_main_v18 (F := Ideal) x1 := rfl

section
variable (h0 : ∀ i, IsR (x0 i)) (h2 : ∀ i, IsR (x2 i)) (h3 : ∀ i, IsR (x3 i)) (h4 : ∀ i, IsR (x4 i)) (h5 : ∀ i, IsR (x5 i))
  (h6 : ∀ i, IsR (x6 i)) (h7 : ∀ i, IsR (x7 i)) (h8 : ∀ i, IsR (x8 i)) (h9 : ∀ i, IsR (x9 i))
include h0

/-- The neighbour sums of the node features are real. -/
theorem agg1_real (i : S50000x128.Idx) : IsR (val_main_v13 (F := Ideal) x0 x1 i) := by
  unfold val_main_v13
  refine scatterAdd_real _ _ _ _ (fun i => ?_) (fun j => ?_) i
  · rw [Cert.ReferenceIdeal.ReadP.val_main_v11_apply, Cert.ReferenceIdeal.ReadP.val_main_cst_apply]
    exact ⟨0, Ideal.ofBits_zero_f32⟩
  · unfold val_main_v10
    exact gather_real _ _ _ h0 j

include h2 h3 h4

/-- The first layer's features are real. -/
theorem h1_real (r : Fin 50000) (j : Fin 128) : IsR (val_main_v30 (F := Ideal) x0 x1 x2 x3 x4 (ix2 r j)) := by
  rw [Cert.ReferenceIdeal.RefIs.h1_apply]
  refine layerR_real _ _ _ _ _ _ (fun r k => agg1_real x0 x1 h0 _) (fun r k => h0 _) (fun r => clip_unit x1 r)
    (fun k j => ?_) (fun k j => ?_) (fun j => h3 _) r j
  · show IsR (val_main_v22 (F := Ideal) x2 (ix2 k j))
    rw [Cert.ReferenceIdeal.ReadP.val_main_v22_apply]; exact h2 _
  · show IsR (val_main_v27 (F := Ideal) x4 (ix2 k j))
    rw [Cert.ReferenceIdeal.ReadP.val_main_v27_apply]; exact h4 _

theorem h1_real' (i : S50000x128.Idx) : IsR (val_main_v30 (F := Ideal) x0 x1 x2 x3 x4 i) := by
  obtain ⟨r, j, rfl⟩ : ∃ (r : Fin 50000) (j : Fin 128), i = ix2 r j := ⟨i 0, i 1, eq_ix2 i⟩
  exact h1_real x0 x1 x2 x3 x4 h0 h2 h3 h4 r j

/-- The neighbour sums of the first layer's features are real. -/
theorem agg2_real (i : S50000x128.Idx) : IsR (val_main_v40 (F := Ideal) x0 x1 x2 x3 x4 i) := by
  unfold val_main_v40
  refine scatterAdd_real _ _ _ _ (fun i => ?_) (fun j => ?_) i
  · rw [Cert.ReferenceIdeal.ReadP.val_main_v38_apply, Cert.ReferenceIdeal.ReadP.val_main_cst_6_apply]
    exact ⟨0, Ideal.ofBits_zero_f32⟩
  · unfold val_main_v37
    exact gather_real _ _ _ (h1_real' x0 x1 x2 x3 x4 h0 h2 h3 h4) j

include h5 h6 h7

/-- The second layer's features are real. -/
theorem h2_real (r : Fin 50000) (j : Fin 128) : IsR (val_main_v57 (F := Ideal) x0 x1 x2 x3 x4 x5 x6 x7 (ix2 r j)) := by
  rw [Cert.ReferenceIdeal.RefIs.h2_apply]
  refine layerR_real _ _ _ _ _ _ (fun r k => agg2_real x0 x1 x2 x3 x4 h0 h2 h3 h4 _)
    (fun r k => h1_real x0 x1 x2 x3 x4 h0 h2 h3 h4 r k) (fun r => by rw [clip2_eq]; exact clip_unit x1 r)
    (fun k j => ?_) (fun k j => ?_) (fun j => h6 _) r j
  · show IsR (val_main_v49 (F := Ideal) x5 (ix2 k j))
    rw [Cert.ReferenceIdeal.ReadP.val_main_v49_apply]; exact h5 _
  · show IsR (val_main_v54 (F := Ideal) x7 (ix2 k j))
    rw [Cert.ReferenceIdeal.ReadP.val_main_v54_apply]; exact h7 _

include h8 h9

/-- The logits are real. -/
theorem logits_real' (r : Fin 50000) (o : Fin 40) :
    IsR (logitsOf (D := 128) (D2 := 256) rfl (cur (val_main_v30 (F := Ideal) x0 x1 x2 x3 x4))
      (cur (val_main_v57 (F := Ideal) x0 x1 x2 x3 x4 x5 x6 x7)) (cur (val_main_v59 (F := Ideal) x8)) (vec x9) r o) := by
  refine logits_real rfl _ _ _ _ (fun r k => h1_real x0 x1 x2 x3 x4 h0 h2 h3 h4 r k)
    (fun r k => h2_real x0 x1 x2 x3 x4 x5 x6 x7 h0 h2 h3 h4 h5 h6 h7 r k) (fun k o => ?_) (fun o => h9 _) r o
  show IsR (val_main_v59 (F := Ideal) x8 (ix2 k o))
  rw [Cert.ReferenceIdeal.ReadP.val_main_v59_apply]; exact h8 _

end

end Reals

/-! ## The kernel's arrays are the reference's stages -/

section Kernel

open Cert.KernelIdeal Cert.KernelIdeal.Gen Cert.KernelIdeal.Blocks Cert.KernelIdeal.HostSide

variable (m : (ℓ : Loc nD τ sig) → Buf (Elt Ideal) ℓ) (ρ : Dev nD → PrngReg) (c : Dev nD)

/-- The degree column the kernel is handed, at row r: the reciprocal of the clamped in-degree. -/
theorem inv_at (r : Fin 50000) :
    (W3 m ρ c (Proc.devRef .tc main_v11) : S50000x1.Idx → EReal) (ix2 r 0)
      = Ideal.div 1 (val_main_v18 (F := Ideal) (m ((c : Thread nD τ).loc main_arg1)) (ix1 r)) := by
  rw [W3_v11, RowOps.shapeCast_a_a1_apply]
  generalize Cert.ReferenceIdeal.ReadP.val_main_v18 (F := Ideal) (m ((c : Thread nD τ).loc main_arg1)) = cl
  have e : (broadcastInDim S50000 ![] bcast_S_S50000 (constant (F := Ideal) S_ .f32 0x3F800000#32)) (ix1 r) = (1 : EReal) :=
    (broadcastInDim_apply _ bcast_S_S50000 _ (ix1 r) ix0 (fun a => a.elim0)).trans ofBits_one
  have hd : ∀ (A B : FVec Ideal S50000 .f32) (i : S50000.Idx), Host.divf (F := Ideal) A B i = Ideal.div (A i) (B i) :=
    fun _ _ _ => rfl
  rw [hd, e]

/-- The first launch's output is the reference's first layer. -/
theorem h1_eq : H1 (V3 m ρ) c = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 50000) (j : Fin 128), i = ix2 r j := ⟨i 0, i 1, eq_ix2 i⟩
  rw [Cert.ReferenceIdeal.RefIs.h1_apply, ← layerK_eq_layerR _ _ _ _ _ _ (fun r => clip_unit (m ((c : Thread nD τ).loc main_arg1)) r)]
  show layerK (cur (W3 m ρ c (Proc.devRef .tc main_v28) : S50000x128.Idx → EReal)) (cur (W3 m ρ c (Proc.devRef .tc main_arg0) : S50000x128.Idx → EReal))
      (col (W3 m ρ c (Proc.devRef .tc main_v11) : S50000x1.Idx → EReal)) (cur (W3 m ρ c (Proc.devRef .tc main_v12) : S128x128.Idx → EReal))
      (cur (W3 m ρ c (Proc.devRef .tc main_v13) : S128x128.Idx → EReal)) (vec (W3 m ρ c (Proc.devRef .tc main_arg3) : S128.Idx → EReal)) r j = _
  exact layerK_congr _ _ _ _ _ _ _ _ _ _ _ _ r r j (fun k => congrFun (W3_v28 m ρ c) _) (fun k => congrFun (W3_arg0 m ρ c) _)
    (inv_at m ρ c r) (fun k j => congrFun (W3_v12 m ρ c) _) (fun k j => congrFun (W3_v13 m ρ c) _)
    (fun j => congrFun (W3_arg3 m ρ c) _)

theorem W4_v29' : W4 m ρ c (Proc.devRef .tc main_v29) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_v29 m ρ c).trans (h1_eq m ρ c)

/-- The second layer the kernel computes is the reference's. -/
theorem h2_at (r : Fin 50000) (j : Fin 128) :
    H2 (V5 m ρ) c r j = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r j) := by
  rw [Cert.ReferenceIdeal.RefIs.h2_apply, ← layerK_eq_layerR _ _ _ _ _ _ (fun r => by rw [clip2_eq]; exact clip_unit (m ((c : Thread nD τ).loc main_arg1)) r)]
  show layerK (cur (W5 m ρ c (Proc.devRef .tc main_v41) : S50000x128.Idx → EReal)) (cur (W5 m ρ c (Proc.devRef .tc main_v29) : S50000x128.Idx → EReal))
      (col (W5 m ρ c (Proc.devRef .tc main_v11) : S50000x1.Idx → EReal)) (cur (W5 m ρ c (Proc.devRef .tc main_v14) : S128x128.Idx → EReal))
      (cur (W5 m ρ c (Proc.devRef .tc main_v15) : S128x128.Idx → EReal)) (vec (W5 m ρ c (Proc.devRef .tc main_arg6) : S128.Idx → EReal)) r j = _
  refine layerK_congr _ _ _ _ _ _ _ _ _ _ _ _ r r j
    (fun k => congrFun (W5_v41 m ρ c (m ((c : Thread nD τ).loc main_arg0)) (m ((c : Thread nD τ).loc main_arg2)) (m ((c : Thread nD τ).loc main_arg3)) (m ((c : Thread nD τ).loc main_arg4)) (W4_v29' m ρ c)) _)
    (fun k => congrFun ((W5_v29 m ρ c).trans (W4_v29' m ρ c)) _) ?_
    (fun k j => congrFun ((W5_v14 m ρ c).trans (W4_v14 m ρ c)) _)
    (fun k j => congrFun ((W5_v15 m ρ c).trans (W4_v15 m ρ c)) _)
    (fun j => congrFun ((W5_arg6 m ρ c).trans (W4_arg6 m ρ c)) _)
  show (W5 m ρ c (Proc.devRef .tc main_v11) : S50000x1.Idx → EReal) (ix2 r 0) = _
  rw [W5_v11, W4_v11, inv_at, clip2_eq]

section
variable (h0 : ∀ i, IsR (((m ((c : Thread nD τ).loc main_arg0)) : S50000x128.Idx → EReal) i)) (h2 : ∀ i, IsR (((m ((c : Thread nD τ).loc main_arg2)) : S128x128.Idx → EReal) i))
  (h3 : ∀ i, IsR (((m ((c : Thread nD τ).loc main_arg3)) : S128.Idx → EReal) i)) (h4 : ∀ i, IsR (((m ((c : Thread nD τ).loc main_arg4)) : S128x128.Idx → EReal) i))
  (h5 : ∀ i, IsR (((m ((c : Thread nD τ).loc main_arg5)) : S128x128.Idx → EReal) i)) (h6 : ∀ i, IsR (((m ((c : Thread nD τ).loc main_arg6)) : S128.Idx → EReal) i))
  (h7 : ∀ i, IsR (((m ((c : Thread nD τ).loc main_arg7)) : S128x128.Idx → EReal) i)) (h8 : ∀ i, IsR (((m ((c : Thread nD τ).loc main_arg8)) : S40x256.Idx → EReal) i))
  (h9 : ∀ i, IsR (((m ((c : Thread nD τ).loc main_arg9)) : S40.Idx → EReal) i))
include h0 h2 h3 h4 h5 h6 h7 h8 h9

/-- The second launch's output is the reference's result. -/
theorem out_eq : Out (V5 m ρ) c = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, o, rfl⟩ : ∃ (r : Fin 50000) (o : Fin 40), i = ix2 r o := ⟨i 0, i 1, eq_ix2 i⟩
  rw [Cert.ReferenceIdeal.RefIs.out_apply,
    ← lsmK_eq_lsmR (by decide) _ (fun r o => logits_real' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) h0 h2 h3 h4 h5 h6 h7 h8 h9 r o)]
  show lsmK (logitsOf (D := 128) (D2 := 256) rfl (cur (W5 m ρ c (Proc.devRef .tc main_v29) : S50000x128.Idx → EReal)) (H2 (V5 m ρ) c)
      (cur (W5 m ρ c (Proc.devRef .tc main_v16) : S256x40.Idx → EReal)) (vec (W5 m ρ c (Proc.devRef .tc main_arg9) : S40.Idx → EReal))) r o = _
  refine lsmK_congr _ _ r r o fun o' => ?_
  exact logitsOf_congr rfl _ _ _ _ _ _ _ _ r r o'
    (fun k => congrFun ((W5_v29 m ρ c).trans (W4_v29' m ρ c)) _) (fun k => h2_at m ρ c r k)
    (fun k o => congrFun ((W5_v16 m ρ c).trans (W4_v16 m ρ c)) _)
    (fun o => congrFun ((W5_arg9 m ρ c).trans (W4_arg9 m ρ c)) _)

/-- The result buffer after the kernel's run holds the reference's result of the same arguments. -/
theorem result_eq : W6 m ρ c (Proc.devRef .tc main_v42) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 8).trans ((final1 (V5 m ρ) c).trans (out_eq m ρ c h0 h2 h3 h4 h5 h6 h7 h8 h9))

end

end Kernel

end Cert.Bridge

end
-- ==== Proof.lean ====
/-
  A two-layer graph convolution with mean aggregation, a linear head on the two layers' features side by side, and a
  row-wise log-softmax: the kernel (two grid launches over blocks of 2000 node rows, with the neighbour gather and
  scatter left to the host) against the plain reference.

  * Frames.  Each program terminates from any memory with zero counters, nothing faults, the arguments end unchanged:
    the two kernel programs by their generated frame certificates, the reference by its run read back stage by stage.
  * The idealization rewrote no operation, so there is nothing to preserve.
  * Values.  Read as extended reals, both programs end with the same array.  The neighbour sums are the same gather and
    scatter-with-addition of the same arrays on both sides.  The kernel multiplies them by the reciprocal of the clamped
    in-degree where the reference divides by it, and adds the layer's bias after the second product instead of before:
    the degree is a sum of ones clamped below by one, a nonzero real, so the quotient is the product with the reciprocal,
    and addition is commutative and associative.  The kernel returns ℓ − (m + log Σ exp (ℓ − m)) where the reference
    returns (ℓ − m) − log Σ exp (ℓ − m): equal because the row maximum m is finite, which follows from the precondition
    (all float inputs finite) through every stage.
-/
import proofs.«125414_j85985245266463_2_alg».proof.Defs
import proofs.«125414_j85985245266463_2_alg».proof.Proof.Gen.Kernel
import proofs.«125414_j85985245266463_2_alg».proof.Proof.Gen.Kernel.Skeleton
import proofs.«125414_j85985245266463_2_alg».proof.Proof.Gen.Kernel.Launch
import proofs.«125414_j85985245266463_2_alg».proof.Proof.Gen.Kernel.Points
import proofs.«125414_j85985245266463_2_alg».proof.Proof.Gen.Kernel.Frame
import proofs.«125414_j85985245266463_2_alg».proof.Proof.Gen.KernelIdeal
import proofs.«125414_j85985245266463_2_alg».proof.Proof.Gen.KernelIdeal.Skeleton
import proofs.«125414_j85985245266463_2_alg».proof.Proof.Gen.KernelIdeal.Launch
import proofs.«125414_j85985245266463_2_alg».proof.Proof.Gen.KernelIdeal.Points
import proofs.«125414_j85985245266463_2_alg».proof.Proof.Gen.KernelIdeal.Frame
import proofs.«125414_j85985245266463_2_alg».proof.Proof.Gen.ReferenceIdeal
import proofs.«125414_j85985245266463_2_alg».proof.Proof.Gen.Pre_finite_inputs
import proofs.«125414_j85985245266463_2_alg».proof.Proof.KerRun
import proofs.«125414_j85985245266463_2_alg».proof.Proof.RefRun
import proofs.«125414_j85985245266463_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the reference's last stage of the (shared) arguments. -/
theorem algebraic : Cert.algebraic_KernelIdeal_ReferenceIdeal := by
  intro m ρ m' ρ' hpre hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.Run.run_value (F := Ideal) m ρ)
    obtain ⟨h0, h2, h3, h4, h5, h6, h7, h8, h9⟩ := Cert.Pre_finite_inputs.Finite.real_of_pre _ _ _ _ _ _ _ _ _ _ (hpre c)
    exact Cert.Bridge.result_eq m ρ c h0 h2 h3 h4 h5 h6 h7 h8 h9
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
